-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S128x128 : Shape := ⟨2, ![128, 128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S524288x128 .f32) (main_arg1 : FVec F S128x128 .f32) (main_arg2 : FVec F S128x128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S524288x128 : Shape := ⟨2, ![524288, 128]⟩
abbrev S128x128 : Shape := ⟨2, ![128, 128]⟩
abbrev S_ : Shape := ⟨0, ![]⟩
abbrev S128 : Shape := ⟨1, ![128]⟩
abbrev S128x1 : Shape := ⟨2, ![128, 1]⟩
abbrev S1x128 : Shape := ⟨2, ![1, 128]⟩
abbrev S8192x128 : Shape := ⟨2, ![8192, 128]⟩

abbrev nBuf : Space → Nat
  | .hbm => 250
  | .vmem => 5
  | .smem => 0
  | _ => 0

abbrev hbmTy0_0 (i : Nat) : BufTy := match i % 128 with
  | 0 => ⟨S524288x128, .f32⟩
  | 1 => ⟨S128x128, .f32⟩
  | 2 => ⟨S128x128, .f32⟩
  | 3 => ⟨S_, .f32⟩
  | 4 => ⟨S128x128, .f32⟩
  | 5 => ⟨S128x128, .f32⟩
  | 6 => ⟨S128x128, .f32⟩
  | 7 => ⟨S128x128, .f32⟩
  | 8 => ⟨S_, .f32⟩
  | 9 => ⟨S128x128, .f32⟩
  | 10 => ⟨S128x128, .f32⟩
  | 11 => ⟨S128x128, .f32⟩
  | 12 => ⟨S128x128, .f32⟩
  | 13 => ⟨S_, .f32⟩
  | 14 => ⟨S128x128, .f32⟩
  | 15 => ⟨S128x128, .f32⟩
  | 16 => ⟨S128x128, .f32⟩
  | 17 => ⟨S_, .f32⟩
  | 18 => ⟨S128x128, .f32⟩
  | 19 => ⟨S128x128, .f32⟩
  | 20 => ⟨S_, .f32⟩
  | 21 => ⟨S_, .f32⟩
  | 22 => ⟨S_, .f32⟩
  | 23 => ⟨S128x128, .f32⟩
  | 24 => ⟨S128x128, .f32⟩
  | 25 => ⟨S_, .f32⟩
  | 26 => ⟨S128x128, .f32⟩
  | 27 => ⟨S128x128, .f32⟩
  | 28 => ⟨S128x128, .f32⟩
  | 29 => ⟨S_, .f32⟩
  | 30 => ⟨S128, .f32⟩
  | 31 => ⟨S128x1, .f32⟩
  | 32 => ⟨S128x128, .f32⟩
  | 33 => ⟨S128x128, .f32⟩
  | 34 => ⟨S_, .f32⟩
  | 35 => ⟨S128, .f32⟩
  | 36 => ⟨S1x128, .f32⟩
  | 37 => ⟨S128x128, .f32⟩
  | 38 => ⟨S128x128, .f32⟩
  | 39 => ⟨S_, .f32⟩
  | 40 => ⟨S128, .f32⟩
  | 41 => ⟨S128x1, .f32⟩
  | 42 => ⟨S128x128, .f32⟩
  | 43 => ⟨S128x128, .f32⟩
  | 44 => ⟨S_, .f32⟩
  | 45 => ⟨S128, .f32⟩
  | 46 => ⟨S1x128, .f32⟩
  | 47 => ⟨S128x128, .f32⟩
  | 48 => ⟨S128x128, .f32⟩
  | 49 => ⟨S_, .f32⟩
  | 50 => ⟨S128, .f32⟩
  | 51 => ⟨S128x1, .f32⟩
  | 52 => ⟨S128x128, .f32⟩
  | 53 => ⟨S128x128, .f32⟩
  | 54 => ⟨S_, .f32⟩
  | 55 => ⟨S128, .f32⟩
  | 56 => ⟨S1x128, .f32⟩
  | 57 => ⟨S128x128, .f32⟩
  | 58 => ⟨S128x128, .f32⟩
  | 59 => ⟨S_, .f32⟩
  | 60 => ⟨S128, .f32⟩
  | 61 => ⟨S128x1, .f32⟩
  | 62 => ⟨S128x128, .f32⟩
  | 63 => ⟨S128x128, .f32⟩
  | 64 => ⟨S_, .f32⟩
  | 65 => ⟨S128, .f32⟩
  | 66 => ⟨S1x128, .f32⟩
  | 67 => ⟨S128x128, .f32⟩
  | 68 => ⟨S128x128, .f32⟩
  | 69 => ⟨S_, .f32⟩
  | 70 => ⟨S128, .f32⟩
  | 71 => ⟨S128x1, .f32⟩
  | 72 => ⟨S128x128, .f32⟩
  | 73 => ⟨S128x128, .f32⟩
  | 74 => ⟨S_, .f32⟩
  | 75 => ⟨S128, .f32⟩
  | 76 => ⟨S1x128, .f32⟩
  | 77 => ⟨S128x128, .f32⟩
  | 78 => ⟨S128x128, .f32⟩
  | 79 => ⟨S_, .f32⟩
  | 80 => ⟨S128, .f32⟩
  | 81 => ⟨S128x1, .f32⟩
  | 82 => ⟨S128x128, .f32⟩
  | 83 => ⟨S128x128, .f32⟩
  | 84 => ⟨S_, .f32⟩
  | 85 => ⟨S128, .f32⟩
  | 86 => ⟨S1x128, .f32⟩
  | 87 => ⟨S128x128, .f32⟩
  | 88 => ⟨S128x128, .f32⟩
  | 89 => ⟨S_, .f32⟩
  | 90 => ⟨S128, .f32⟩
  | 91 => ⟨S128x1, .f32⟩
  | 92 => ⟨S128x128, .f32⟩
  | 93 => ⟨S128x128, .f32⟩
  | 94 => ⟨S_, .f32⟩
  | 95 => ⟨S128, .f32⟩
  | 96 => ⟨S1x128, .f32⟩
  | 97 => ⟨S128x128, .f32⟩
  | 98 => ⟨S128x128, .f32⟩
  | 99 => ⟨S_, .f32⟩
  | 100 => ⟨S128, .f32⟩
  | 101 => ⟨S128x1, .f32⟩
  | 102 => ⟨S128x128, .f32⟩
  | 103 => ⟨S128x128, .f32⟩
  | 104 => ⟨S_, .f32⟩
  | 105 => ⟨S128, .f32⟩
  | 106 => ⟨S1x128, .f32⟩
  | 107 => ⟨S128x128, .f32⟩
  | 108 => ⟨S128x128, .f32⟩
  | 109 => ⟨S_, .f32⟩
  | 110 => ⟨S128, .f32⟩
  | 111 => ⟨S128x1, .f32⟩
  | 112 => ⟨S128x128, .f32⟩
  | 113 => ⟨S128x128, .f32⟩
  | 114 => ⟨S_, .f32⟩
  | 115 => ⟨S128, .f32⟩
  | 116 => ⟨S1x128, .f32⟩
  | 117 => ⟨S128x128, .f32⟩
  | 118 => ⟨S128x128, .f32⟩
  | 119 => ⟨S_, .f32⟩
  | 120 => ⟨S128, .f32⟩
  | 121 => ⟨S128x1, .f32⟩
  | 122 => ⟨S128x128, .f32⟩
  | 123 => ⟨S128x128, .f32⟩
  | 124 => ⟨S_, .f32⟩
  | 125 => ⟨S128, .f32⟩
  | 126 => ⟨S1x128, .f32⟩
  | 127 => ⟨S128x128, .f32⟩
  | _ => ⟨S524288x128, .f32⟩

abbrev hbmTy0_1 (i : Nat) : BufTy := match i % 128 with
  | 0 => ⟨S128x128, .f32⟩
  | 1 => ⟨S_, .f32⟩
  | 2 => ⟨S128, .f32⟩
  | 3 => ⟨S128x1, .f32⟩
  | 4 => ⟨S128x128, .f32⟩
  | 5 => ⟨S128x128, .f32⟩
  | 6 => ⟨S_, .f32⟩
  | 7 => ⟨S128, .f32⟩
  | 8 => ⟨S1x128, .f32⟩
  | 9 => ⟨S128x128, .f32⟩
  | 10 => ⟨S128x128, .f32⟩
  | 11 => ⟨S_, .f32⟩
  | 12 => ⟨S128, .f32⟩
  | 13 => ⟨S128x1, .f32⟩
  | 14 => ⟨S128x128, .f32⟩
  | 15 => ⟨S128x128, .f32⟩
  | 16 => ⟨S_, .f32⟩
  | 17 => ⟨S128, .f32⟩
  | 18 => ⟨S1x128, .f32⟩
  | 19 => ⟨S128x128, .f32⟩
  | 20 => ⟨S128x128, .f32⟩
  | 21 => ⟨S_, .f32⟩
  | 22 => ⟨S128, .f32⟩
  | 23 => ⟨S128x1, .f32⟩
  | 24 => ⟨S128x128, .f32⟩
  | 25 => ⟨S128x128, .f32⟩
  | 26 => ⟨S_, .f32⟩
  | 27 => ⟨S128, .f32⟩
  | 28 => ⟨S1x128, .f32⟩
  | 29 => ⟨S128x128, .f32⟩
  | 30 => ⟨S128x128, .f32⟩
  | 31 => ⟨S_, .f32⟩
  | 32 => ⟨S128, .f32⟩
  | 33 => ⟨S128x1, .f32⟩
  | 34 => ⟨S128x128, .f32⟩
  | 35 => ⟨S128x128, .f32⟩
  | 36 => ⟨S_, .f32⟩
  | 37 => ⟨S128, .f32⟩
  | 38 => ⟨S1x128, .f32⟩
  | 39 => ⟨S128x128, .f32⟩
  | 40 => ⟨S128x128, .f32⟩
  | 41 => ⟨S_, .f32⟩
  | 42 => ⟨S128, .f32⟩
  | 43 => ⟨S128x1, .f32⟩
  | 44 => ⟨S128x128, .f32⟩
  | 45 => ⟨S128x128, .f32⟩
  | 46 => ⟨S_, .f32⟩
  | 47 => ⟨S128, .f32⟩
  | 48 => ⟨S1x128, .f32⟩
  | 49 => ⟨S128x128, .f32⟩
  | 50 => ⟨S128x128, .f32⟩
  | 51 => ⟨S_, .f32⟩
  | 52 => ⟨S128, .f32⟩
  | 53 => ⟨S128x1, .f32⟩
  | 54 => ⟨S128x128, .f32⟩
  | 55 => ⟨S128x128, .f32⟩
  | 56 => ⟨S_, .f32⟩
  | 57 => ⟨S128, .f32⟩
  | 58 => ⟨S1x128, .f32⟩
  | 59 => ⟨S128x128, .f32⟩
  | 60 => ⟨S128x128, .f32⟩
  | 61 => ⟨S_, .f32⟩
  | 62 => ⟨S128, .f32⟩
  | 63 => ⟨S128x1, .f32⟩
  | 64 => ⟨S128x128, .f32⟩
  | 65 => ⟨S128x128, .f32⟩
  | 66 => ⟨S_, .f32⟩
  | 67 => ⟨S128, .f32⟩
  | 68 => ⟨S1x128, .f32⟩
  | 69 => ⟨S128x128, .f32⟩
  | 70 => ⟨S128x128, .f32⟩
  | 71 => ⟨S_, .f32⟩
  | 72 => ⟨S128, .f32⟩
  | 73 => ⟨S128x1, .f32⟩
  | 74 => ⟨S128x128, .f32⟩
  | 75 => ⟨S128x128, .f32⟩
  | 76 => ⟨S_, .f32⟩
  | 77 => ⟨S128, .f32⟩
  | 78 => ⟨S1x128, .f32⟩
  | 79 => ⟨S128x128, .f32⟩
  | 80 => ⟨S128x128, .f32⟩
  | 81 => ⟨S_, .f32⟩
  | 82 => ⟨S128, .f32⟩
  | 83 => ⟨S128x1, .f32⟩
  | 84 => ⟨S128x128, .f32⟩
  | 85 => ⟨S128x128, .f32⟩
  | 86 => ⟨S_, .f32⟩
  | 87 => ⟨S128, .f32⟩
  | 88 => ⟨S1x128, .f32⟩
  | 89 => ⟨S128x128, .f32⟩
  | 90 => ⟨S128x128, .f32⟩
  | 91 => ⟨S_, .f32⟩
  | 92 => ⟨S128, .f32⟩
  | 93 => ⟨S128x1, .f32⟩
  | 94 => ⟨S128x128, .f32⟩
  | 95 => ⟨S128x128, .f32⟩
  | 96 => ⟨S_, .f32⟩
  | 97 => ⟨S128, .f32⟩
  | 98 => ⟨S1x128, .f32⟩
  | 99 => ⟨S128x128, .f32⟩
  | 100 => ⟨S128x128, .f32⟩
  | 101 => ⟨S_, .f32⟩
  | 102 => ⟨S_, .f32⟩
  | 103 => ⟨S_, .f32⟩
  | 104 => ⟨S128x128, .i1⟩
  | 105 => ⟨S_, .f32⟩
  | 106 => ⟨S128x128, .f32⟩
  | 107 => ⟨S128x128, .f32⟩
  | 108 => ⟨S_, .f32⟩
  | 109 => ⟨S128x128, .f32⟩
  | 110 => ⟨S128x128, .i1⟩
  | 111 => ⟨S_, .f32⟩
  | 112 => ⟨S128x128, .f32⟩
  | 113 => ⟨S128x128, .f32⟩
  | 114 => ⟨S_, .f32⟩
  | 115 => ⟨S128x128, .f32⟩
  | 116 => ⟨S128x128, .i1⟩
  | 117 => ⟨S_, .f32⟩
  | 118 => ⟨S128x128, .f32⟩
  | 119 => ⟨S128x128, .f32⟩
  | 120 => ⟨S128x128, .f32⟩
  | 121 => ⟨S524288x128, .f32⟩
  | _ => ⟨S524288x128, .f32⟩

abbrev hbmTy (i : Nat) : BufTy := match i / 128 with
  | 0 => hbmTy0_0 i
  | 1 => hbmTy0_1 i
  | _ => ⟨S524288x128, .f32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S8192x128, .f32⟩
  | .local _ .vmem, ⟨4, _⟩ => ⟨S8192x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_cst_2 : Ref sig .tc := ⟨.hbm, 17, rfl⟩
abbrev main_call0_v11 : Ref sig .tc := ⟨.hbm, 18, rfl⟩
abbrev main_call0_v12 : Ref sig .tc := ⟨.hbm, 19, rfl⟩
abbrev main_call0_cst_3 : Ref sig .tc := ⟨.hbm, 20, rfl⟩
abbrev main_call0_cst_4 : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_v13 : Ref sig .tc := ⟨.hbm, 27, rfl⟩
abbrev main_call0_v14 : Ref sig .tc := ⟨.hbm, 28, rfl⟩
abbrev main_call0_cst_5 : Ref sig .tc := ⟨.hbm, 29, rfl⟩
abbrev main_call0_v15 : Ref sig .tc := ⟨.hbm, 30, rfl⟩
abbrev main_call0_v16 : Ref sig .tc := ⟨.hbm, 31, rfl⟩
abbrev main_call0_v17 : Ref sig .tc := ⟨.hbm, 32, rfl⟩
abbrev main_call0_v18 : Ref sig .tc := ⟨.hbm, 33, rfl⟩
abbrev main_call0_cst_6 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_call0_v22 : Ref sig .tc := ⟨.hbm, 38, rfl⟩
abbrev main_call0_cst_7 : Ref sig .tc := ⟨.hbm, 39, rfl⟩
abbrev main_call0_v23 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_call0_cst_8 : Ref sig .tc := ⟨.hbm, 44, rfl⟩
abbrev main_call0_v27 : Ref sig .tc := ⟨.hbm, 45, rfl⟩
abbrev main_call0_v28 : Ref sig .tc := ⟨.hbm, 46, rfl⟩
abbrev main_call0_v29 : Ref sig .tc := ⟨.hbm, 47, rfl⟩
abbrev main_call0_v30 : Ref sig .tc := ⟨.hbm, 48, rfl⟩
abbrev main_call0_cst_9 : Ref sig .tc := ⟨.hbm, 49, rfl⟩
abbrev main_call0_v31 : Ref sig .tc := ⟨.hbm, 50, rfl⟩
abbrev main_call0_v32 : Ref sig .tc := ⟨.hbm, 51, rfl⟩
abbrev main_call0_v33 : Ref sig .tc := ⟨.hbm, 52, rfl⟩
abbrev main_call0_v34 : Ref sig .tc := ⟨.hbm, 53, rfl⟩
abbrev main_call0_cst_10 : Ref sig .tc := ⟨.hbm, 54, rfl⟩
abbrev main_call0_v35 : Ref sig .tc := ⟨.hbm, 55, rfl⟩
abbrev main_call0_v36 : Ref sig .tc := ⟨.hbm, 56, rfl⟩
abbrev main_call0_v37 : Ref sig .tc := ⟨.hbm, 57, rfl⟩
abbrev main_call0_v38 : Ref sig .tc := ⟨.hbm, 58, rfl⟩
abbrev main_call0_cst_11 : Ref sig .tc := ⟨.hbm, 59, rfl⟩
abbrev main_call0_v39 : Ref sig .tc := ⟨.hbm, 60, rfl⟩
abbrev main_call0_v40 : Ref sig .tc := ⟨.hbm, 61, rfl⟩
abbrev main_call0_v41 : Ref sig .tc := ⟨.hbm, 62, rfl⟩
abbrev main_call0_v42 : Ref sig .tc := ⟨.hbm, 63, rfl⟩
abbrev main_call0_cst_12 : Ref sig .tc := ⟨.hbm, 64, rfl⟩
abbrev main_call0_v43 : Ref sig .tc := ⟨.hbm, 65, rfl⟩
abbrev main_call0_v44 : Ref sig .tc := ⟨.hbm, 66, rfl⟩
abbrev main_call0_v45 : Ref sig .tc := ⟨.hbm, 67, rfl⟩
abbrev main_call0_v46 : Ref sig .tc := ⟨.hbm, 68, rfl⟩
abbrev main_call0_cst_13 : Ref sig .tc := ⟨.hbm, 69, rfl⟩
abbrev main_call0_v47 : Ref sig .tc := ⟨.hbm, 70, rfl⟩
abbrev main_call0_v48 : Ref sig .tc := ⟨.hbm, 71, rfl⟩
abbrev main_call0_v49 : Ref sig .tc := ⟨.hbm, 72, rfl⟩
abbrev main_call0_v50 : Ref sig .tc := ⟨.hbm, 73, rfl⟩
abbrev main_call0_cst_14 : Ref sig .tc := ⟨.hbm, 74, rfl⟩
abbrev main_call0_v51 : Ref sig .tc := ⟨.hbm, 75, rfl⟩
abbrev main_call0_v52 : Ref sig .tc := ⟨.hbm, 76, rfl⟩
abbrev main_call0_v53 : Ref sig .tc := ⟨.hbm, 77, rfl⟩
abbrev main_call0_v54 : Ref sig .tc := ⟨.hbm, 78, rfl⟩
abbrev main_call0_cst_15 : Ref sig .tc := ⟨.hbm, 79, rfl⟩
abbrev main_call0_v55 : Ref sig .tc := ⟨.hbm, 80, rfl⟩
abbrev main_call0_v56 : Ref sig .tc := ⟨.hbm, 81, rfl⟩
abbrev main_call0_v57 : Ref sig .tc := ⟨.hbm, 82, rfl⟩
abbrev main_call0_v58 : Ref sig .tc := ⟨.hbm, 83, rfl⟩
abbrev main_call0_cst_16 : Ref sig .tc := ⟨.hbm, 84, rfl⟩
abbrev main_call0_v59 : Ref sig .tc := ⟨.hbm, 85, rfl⟩
abbrev main_call0_v60 : Ref sig .tc := ⟨.hbm, 86, rfl⟩
abbrev main_call0_v61 : Ref sig .tc := ⟨.hbm, 87, rfl⟩
abbrev main_call0_v62 : Ref sig .tc := ⟨.hbm, 88, rfl⟩
abbrev main_call0_cst_17 : Ref sig .tc := ⟨.hbm, 89, rfl⟩
abbrev main_call0_v63 : Ref sig .tc := ⟨.hbm, 90, rfl⟩
abbrev main_call0_v64 : Ref sig .tc := ⟨.hbm, 91, rfl⟩
abbrev main_call0_v65 : Ref sig .tc := ⟨.hbm, 92, rfl⟩
abbrev main_call0_v66 : Ref sig .tc := ⟨.hbm, 93, rfl⟩
abbrev main_call0_cst_18 : Ref sig .tc := ⟨.hbm, 94, rfl⟩
abbrev main_call0_v67 : Ref sig .tc := ⟨.hbm, 95, rfl⟩
abbrev main_call0_v68 : Ref sig .tc := ⟨.hbm, 96, rfl⟩
abbrev main_call0_v69 : Ref sig .tc := ⟨.hbm, 97, rfl⟩
abbrev main_call0_v70 : Ref sig .tc := ⟨.hbm, 98, rfl⟩
abbrev main_call0_cst_19 : Ref sig .tc := ⟨.hbm, 99, rfl⟩
abbrev main_call0_v71 : Ref sig .tc := ⟨.hbm, 100, rfl⟩
abbrev main_call0_v72 : Ref sig .tc := ⟨.hbm, 101, rfl⟩
abbrev main_call0_v73 : Ref sig .tc := ⟨.hbm, 102, rfl⟩
abbrev main_call0_v74 : Ref sig .tc := ⟨.hbm, 103, rfl⟩
abbrev main_call0_cst_20 : Ref sig .tc := ⟨.hbm, 104, rfl⟩
abbrev main_call0_v75 : Ref sig .tc := ⟨.hbm, 105, rfl⟩
abbrev main_call0_v76 : Ref sig .tc := ⟨.hbm, 106, rfl⟩
abbrev main_call0_v77 : Ref sig .tc := ⟨.hbm, 107, rfl⟩
abbrev main_call0_v78 : Ref sig .tc := ⟨.hbm, 108, rfl⟩
abbrev main_call0_cst_21 : Ref sig .tc := ⟨.hbm, 109, rfl⟩
abbrev main_call0_v79 : Ref sig .tc := ⟨.hbm, 110, rfl⟩
abbrev main_call0_v80 : Ref sig .tc := ⟨.hbm, 111, rfl⟩
abbrev main_call0_v81 : Ref sig .tc := ⟨.hbm, 112, rfl⟩
abbrev main_call0_v82 : Ref sig .tc := ⟨.hbm, 113, rfl⟩
abbrev main_call0_cst_22 : Ref sig .tc := ⟨.hbm, 114, rfl⟩
abbrev main_call0_v83 : Ref sig .tc := ⟨.hbm, 115, rfl⟩
abbrev main_call0_v84 : Ref sig .tc := ⟨.hbm, 116, rfl⟩
abbrev main_call0_v85 : Ref sig .tc := ⟨.hbm, 117, rfl⟩
abbrev main_call0_v86 : Ref sig .tc := ⟨.hbm, 118, rfl⟩
abbrev main_call0_cst_23 : Ref sig .tc := ⟨.hbm, 119, rfl⟩
abbrev main_call0_v87 : Ref sig .tc := ⟨.hbm, 120, rfl⟩
abbrev main_call0_v88 : Ref sig .tc := ⟨.hbm, 121, rfl⟩
abbrev main_call0_v89 : Ref sig .tc := ⟨.hbm, 122, rfl⟩
abbrev main_call0_v90 : Ref sig .tc := ⟨.hbm, 123, rfl⟩
abbrev main_call0_cst_24 : Ref sig .tc := ⟨.hbm, 124, rfl⟩
abbrev main_call0_v91 : Ref sig .tc := ⟨.hbm, 125, rfl⟩
abbrev main_call0_v92 : Ref sig .tc := ⟨.hbm, 126, rfl⟩
abbrev main_call0_v93 : Ref sig .tc := ⟨.hbm, 127, rfl⟩
abbrev main_call0_v94 : Ref sig .tc := ⟨.hbm, 128, rfl⟩
abbrev main_call0_cst_25 : Ref sig .tc := ⟨.hbm, 129, rfl⟩
abbrev main_call0_v95 : Ref sig .tc := ⟨.hbm, 130, rfl⟩
abbrev main_call0_v96 : Ref sig .tc := ⟨.hbm, 131, rfl⟩
abbrev main_call0_v97 : Ref sig .tc := ⟨.hbm, 132, rfl⟩
abbrev main_call0_v98 : Ref sig .tc := ⟨.hbm, 133, rfl⟩
abbrev main_call0_cst_26 : Ref sig .tc := ⟨.hbm, 134, rfl⟩
abbrev main_call0_v99 : Ref sig .tc := ⟨.hbm, 135, rfl⟩
abbrev main_call0_v100 : Ref sig .tc := ⟨.hbm, 136, rfl⟩
abbrev main_call0_v101 : Ref sig .tc := ⟨.hbm, 137, rfl⟩
abbrev main_call0_v102 : Ref sig .tc := ⟨.hbm, 138, rfl⟩
abbrev main_call0_cst_27 : Ref sig .tc := ⟨.hbm, 139, rfl⟩
abbrev main_call0_v103 : Ref sig .tc := ⟨.hbm, 140, rfl⟩
abbrev main_call0_v104 : Ref sig .tc := ⟨.hbm, 141, rfl⟩
abbrev main_call0_v105 : Ref sig .tc := ⟨.hbm, 142, rfl⟩
abbrev main_call0_v106 : Ref sig .tc := ⟨.hbm, 143, rfl⟩
abbrev main_call0_cst_28 : Ref sig .tc := ⟨.hbm, 144, rfl⟩
abbrev main_call0_v107 : Ref sig .tc := ⟨.hbm, 145, rfl⟩
abbrev main_call0_v108 : Ref sig .tc := ⟨.hbm, 146, rfl⟩
abbrev main_call0_v109 : Ref sig .tc := ⟨.hbm, 147, rfl⟩
abbrev main_call0_v110 : Ref sig .tc := ⟨.hbm, 148, rfl⟩
abbrev main_call0_cst_29 : Ref sig .tc := ⟨.hbm, 149, rfl⟩
abbrev main_call0_v111 : Ref sig .tc := ⟨.hbm, 150, rfl⟩
abbrev main_call0_v112 : Ref sig .tc := ⟨.hbm, 151, rfl⟩
abbrev main_call0_v113 : Ref sig .tc := ⟨.hbm, 152, rfl⟩
abbrev main_call0_v114 : Ref sig .tc := ⟨.hbm, 153, rfl⟩
abbrev main_call0_cst_30 : Ref sig .tc := ⟨.hbm, 154, rfl⟩
abbrev main_call0_v115 : Ref sig .tc := ⟨.hbm, 155, rfl⟩
abbrev main_call0_v116 : Ref sig .tc := ⟨.hbm, 156, rfl⟩
abbrev main_call0_v117 : Ref sig .tc := ⟨.hbm, 157, rfl⟩
abbrev main_call0_v118 : Ref sig .tc := ⟨.hbm, 158, rfl⟩
abbrev main_call0_cst_31 : Ref sig .tc := ⟨.hbm, 159, rfl⟩
abbrev main_call0_v119 : Ref sig .tc := ⟨.hbm, 160, rfl⟩
abbrev main_call0_v120 : Ref sig .tc := ⟨.hbm, 161, rfl⟩
abbrev main_call0_v121 : Ref sig .tc := ⟨.hbm, 162, rfl⟩
abbrev main_call0_v122 : Ref sig .tc := ⟨.hbm, 163, rfl⟩
abbrev main_call0_cst_32 : Ref sig .tc := ⟨.hbm, 164, rfl⟩
abbrev main_call0_v123 : Ref sig .tc := ⟨.hbm, 165, rfl⟩
abbrev main_call0_v124 : Ref sig .tc := ⟨.hbm, 166, rfl⟩
abbrev main_call0_v125 : Ref sig .tc := ⟨.hbm, 167, rfl⟩
abbrev main_call0_v126 : Ref sig .tc := ⟨.hbm, 168, rfl⟩
abbrev main_call0_cst_33 : Ref sig .tc := ⟨.hbm, 169, rfl⟩
abbrev main_call0_v127 : Ref sig .tc := ⟨.hbm, 170, rfl⟩
abbrev main_call0_v128 : Ref sig .tc := ⟨.hbm, 171, rfl⟩
abbrev main_call0_v129 : Ref sig .tc := ⟨.hbm, 172, rfl⟩
abbrev main_call0_v130 : Ref sig .tc := ⟨.hbm, 173, rfl⟩
abbrev main_call0_cst_34 : Ref sig .tc := ⟨.hbm, 174, rfl⟩
abbrev main_call0_v131 : Ref sig .tc := ⟨.hbm, 175, rfl⟩
abbrev main_call0_v132 : Ref sig .tc := ⟨.hbm, 176, rfl⟩
abbrev main_call0_v133 : Ref sig .tc := ⟨.hbm, 177, rfl⟩
abbrev main_call0_v134 : Ref sig .tc := ⟨.hbm, 178, rfl⟩
abbrev main_call0_cst_35 : Ref sig .tc := ⟨.hbm, 179, rfl⟩
abbrev main_call0_v135 : Ref sig .tc := ⟨.hbm, 180, rfl⟩
abbrev main_call0_v136 : Ref sig .tc := ⟨.hbm, 181, rfl⟩
abbrev main_call0_v137 : Ref sig .tc := ⟨.hbm, 182, rfl⟩
abbrev main_call0_v138 : Ref sig .tc := ⟨.hbm, 183, rfl⟩
abbrev main_call0_cst_36 : Ref sig .tc := ⟨.hbm, 184, rfl⟩
abbrev main_call0_v139 : Ref sig .tc := ⟨.hbm, 185, rfl⟩
abbrev main_call0_v140 : Ref sig .tc := ⟨.hbm, 186, rfl⟩
abbrev main_call0_v141 : Ref sig .tc := ⟨.hbm, 187, rfl⟩
abbrev main_call0_v142 : Ref sig .tc := ⟨.hbm, 188, rfl⟩
abbrev main_call0_cst_37 : Ref sig .tc := ⟨.hbm, 189, rfl⟩
abbrev main_call0_v143 : Ref sig .tc := ⟨.hbm, 190, rfl⟩
abbrev main_call0_v144 : Ref sig .tc := ⟨.hbm, 191, rfl⟩
abbrev main_call0_v145 : Ref sig .tc := ⟨.hbm, 192, rfl⟩
abbrev main_call0_v146 : Ref sig .tc := ⟨.hbm, 193, rfl⟩
abbrev main_call0_cst_38 : Ref sig .tc := ⟨.hbm, 194, rfl⟩
abbrev main_call0_v147 : Ref sig .tc := ⟨.hbm, 195, rfl⟩
abbrev main_call0_v148 : Ref sig .tc := ⟨.hbm, 196, rfl⟩
abbrev main_call0_v149 : Ref sig .tc := ⟨.hbm, 197, rfl⟩
abbrev main_call0_v150 : Ref sig .tc := ⟨.hbm, 198, rfl⟩
abbrev main_call0_cst_39 : Ref sig .tc := ⟨.hbm, 199, rfl⟩
abbrev main_call0_v151 : Ref sig .tc := ⟨.hbm, 200, rfl⟩
abbrev main_call0_v152 : Ref sig .tc := ⟨.hbm, 201, rfl⟩
abbrev main_call0_v153 : Ref sig .tc := ⟨.hbm, 202, rfl⟩
abbrev main_call0_v154 : Ref sig .tc := ⟨.hbm, 203, rfl⟩
abbrev main_call0_cst_40 : Ref sig .tc := ⟨.hbm, 204, rfl⟩
abbrev main_call0_v155 : Ref sig .tc := ⟨.hbm, 205, rfl⟩
abbrev main_call0_v156 : Ref sig .tc := ⟨.hbm, 206, rfl⟩
abbrev main_call0_v157 : Ref sig .tc := ⟨.hbm, 207, rfl⟩
abbrev main_call0_v158 : Ref sig .tc := ⟨.hbm, 208, rfl⟩
abbrev main_call0_cst_41 : Ref sig .tc := ⟨.hbm, 209, rfl⟩
abbrev main_call0_v159 : Ref sig .tc := ⟨.hbm, 210, rfl⟩
abbrev main_call0_v160 : Ref sig .tc := ⟨.hbm, 211, rfl⟩
abbrev main_call0_v161 : Ref sig .tc := ⟨.hbm, 212, rfl⟩
abbrev main_call0_v162 : Ref sig .tc := ⟨.hbm, 213, rfl⟩
abbrev main_call0_cst_42 : Ref sig .tc := ⟨.hbm, 214, rfl⟩
abbrev main_call0_v163 : Ref sig .tc := ⟨.hbm, 215, rfl⟩
abbrev main_call0_v164 : Ref sig .tc := ⟨.hbm, 216, rfl⟩
abbrev main_call0_v165 : Ref sig .tc := ⟨.hbm, 217, rfl⟩
abbrev main_call0_v166 : Ref sig .tc := ⟨.hbm, 218, rfl⟩
abbrev main_call0_cst_43 : Ref sig .tc := ⟨.hbm, 219, rfl⟩
abbrev main_call0_v167 : Ref sig .tc := ⟨.hbm, 220, rfl⟩
abbrev main_call0_v168 : Ref sig .tc := ⟨.hbm, 221, rfl⟩
abbrev main_call0_v169 : Ref sig .tc := ⟨.hbm, 222, rfl⟩
abbrev main_call0_v170 : Ref sig .tc := ⟨.hbm, 223, rfl⟩
abbrev main_call0_cst_44 : Ref sig .tc := ⟨.hbm, 224, rfl⟩
abbrev main_call0_v171 : Ref sig .tc := ⟨.hbm, 225, rfl⟩
abbrev main_call0_v172 : Ref sig .tc := ⟨.hbm, 226, rfl⟩
abbrev main_call0_v173 : Ref sig .tc := ⟨.hbm, 227, rfl⟩
abbrev main_call0_v174 : Ref sig .tc := ⟨.hbm, 228, rfl⟩
abbrev main_call0_cst_45 : Ref sig .tc := ⟨.hbm, 229, rfl⟩
abbrev main_call0_cst_46 : Ref sig .tc := ⟨.hbm, 230, rfl⟩
abbrev main_call0_cst_47 : Ref sig .tc := ⟨.hbm, 231, rfl⟩
abbrev main_call0_call1_v0 : Ref sig .tc := ⟨.hbm, 232, rfl⟩
abbrev main_call0_call1_v1 : Ref sig .tc := ⟨.hbm, 233, rfl⟩
abbrev main_call0_call1_call0_v0 : Ref sig .tc := ⟨.hbm, 234, rfl⟩
abbrev main_call0_call1_v2 : Ref sig .tc := ⟨.hbm, 235, rfl⟩
abbrev main_call0_call1_cst : Ref sig .tc := ⟨.hbm, 236, rfl⟩
abbrev main_call0_call1_v3 : Ref sig .tc := ⟨.hbm, 237, rfl⟩
abbrev main_call0_call1_v4 : Ref sig .tc := ⟨.hbm, 238, rfl⟩
abbrev main_call0_call1_v5 : Ref sig .tc := ⟨.hbm, 239, rfl⟩
abbrev main_call0_call1_call1_v0 : Ref sig .tc := ⟨.hbm, 240, rfl⟩
abbrev main_call0_call1_v6 : Ref sig .tc := ⟨.hbm, 241, rfl⟩
abbrev main_call0_call1_cst_0 : Ref sig .tc := ⟨.hbm, 242, rfl⟩
abbrev main_call0_call1_v7 : Ref sig .tc := ⟨.hbm, 243, rfl⟩
abbrev main_call0_call1_v8 : Ref sig .tc := ⟨.hbm, 244, rfl⟩
abbrev main_call0_call1_v9 : Ref sig .tc := ⟨.hbm, 245, rfl⟩
abbrev main_call0_call1_call2_v0 : Ref sig .tc := ⟨.hbm, 246, rfl⟩
abbrev main_call0_v175 : Ref sig .tc := ⟨.hbm, 247, rfl⟩
abbrev main_call0_v176 : Ref sig .tc := ⟨.hbm, 248, rfl⟩
abbrev main_v0 : Ref sig .tc := ⟨.hbm, 249, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S128x128 : S_.BroadcastsInDim S128x128 (![] : Fin 0 → Fin S128x128.rank)
  reducesTo_S128x128_S128_d1 : S128x128.ReducesTo [1] S128
  h_S_ : 0 < S_.numel
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  reducesTo_S128x128_S128_d0 : S128x128.ReducesTo [0] S128
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  transposes_S128x128_S128x128_1_0 : S128x128.Transposes [1, 0] S128x128
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S524288x128.size a
  hwx0_2 : ∀ i : grid0.Coords, EltTy.bits .f32 = 32 ∨ (Rect.block (s := S524288x128) S8192x128.size (cc0_transform_2 i) (hinb0_2 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v176) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S524288x128 : Shape := ⟨2, ![524288, 128]⟩
abbrev S128x128 : Shape := ⟨2, ![128, 128]⟩
abbrev S_ : Shape := ⟨0, ![]⟩
abbrev S128 : Shape := ⟨1, ![128]⟩
abbrev S128x1 : Shape := ⟨2, ![128, 1]⟩
abbrev S1x128 : Shape := ⟨2, ![1, 128]⟩

abbrev nBuf : Space → Nat
  | .hbm => 250
  | .vmem => 0
  | .smem => 0
  | _ => 0

abbrev hbmTy0_0 (i : Nat) : BufTy := match i % 128 with
  | 0 => ⟨S524288x128, .f32⟩
  | 1 => ⟨S128x128, .f32⟩
  | 2 => ⟨S128x128, .f32⟩
  | 3 => ⟨S_, .f32⟩
  | 4 => ⟨S128x128, .f32⟩
  | 5 => ⟨S128x128, .f32⟩
  | 6 => ⟨S128x128, .f32⟩
  | 7 => ⟨S128x128, .f32⟩
  | 8 => ⟨S_, .f32⟩
  | 9 => ⟨S128x128, .f32⟩
  | 10 => ⟨S128x128, .f32⟩
  | 11 => ⟨S128x128, .f32⟩
  | 12 => ⟨S128x128, .f32⟩
  | 13 => ⟨S_, .f32⟩
  | 14 => ⟨S128x128, .f32⟩
  | 15 => ⟨S128x128, .f32⟩
  | 16 => ⟨S128x128, .f32⟩
  | 17 => ⟨S_, .f32⟩
  | 18 => ⟨S128x128, .f32⟩
  | 19 => ⟨S128x128, .f32⟩
  | 20 => ⟨S_, .f32⟩
  | 21 => ⟨S_, .f32⟩
  | 22 => ⟨S_, .f32⟩
  | 23 => ⟨S128x128, .f32⟩
  | 24 => ⟨S128x128, .f32⟩
  | 25 => ⟨S_, .f32⟩
  | 26 => ⟨S128x128, .f32⟩
  | 27 => ⟨S128x128, .f32⟩
  | 28 => ⟨S128x128, .f32⟩
  | 29 => ⟨S_, .f32⟩
  | 30 => ⟨S128, .f32⟩
  | 31 => ⟨S128x1, .f32⟩
  | 32 => ⟨S128x128, .f32⟩
  | 33 => ⟨S128x128, .f32⟩
  | 34 => ⟨S_, .f32⟩
  | 35 => ⟨S128, .f32⟩
  | 36 => ⟨S1x128, .f32⟩
  | 37 => ⟨S128x128, .f32⟩
  | 38 => ⟨S128x128, .f32⟩
  | 39 => ⟨S_, .f32⟩
  | 40 => ⟨S128, .f32⟩
  | 41 => ⟨S128x1, .f32⟩
  | 42 => ⟨S128x128, .f32⟩
  | 43 => ⟨S128x128, .f32⟩
  | 44 => ⟨S_, .f32⟩
  | 45 => ⟨S128, .f32⟩
  | 46 => ⟨S1x128, .f32⟩
  | 47 => ⟨S128x128, .f32⟩
  | 48 => ⟨S128x128, .f32⟩
  | 49 => ⟨S_, .f32⟩
  | 50 => ⟨S128, .f32⟩
  | 51 => ⟨S128x1, .f32⟩
  | 52 => ⟨S128x128, .f32⟩
  | 53 => ⟨S128x128, .f32⟩
  | 54 => ⟨S_, .f32⟩
  | 55 => ⟨S128, .f32⟩
  | 56 => ⟨S1x128, .f32⟩
  | 57 => ⟨S128x128, .f32⟩
  | 58 => ⟨S128x128, .f32⟩
  | 59 => ⟨S_, .f32⟩
  | 60 => ⟨S128, .f32⟩
  | 61 => ⟨S128x1, .f32⟩
  | 62 => ⟨S128x128, .f32⟩
  | 63 => ⟨S128x128, .f32⟩
  | 64 => ⟨S_, .f32⟩
  | 65 => ⟨S128, .f32⟩
  | 66 => ⟨S1x128, .f32⟩
  | 67 => ⟨S128x128, .f32⟩
  | 68 => ⟨S128x128, .f32⟩
  | 69 => ⟨S_, .f32⟩
  | 70 => ⟨S128, .f32⟩
  | 71 => ⟨S128x1, .f32⟩
  | 72 => ⟨S128x128, .f32⟩
  | 73 => ⟨S128x128, .f32⟩
  | 74 => ⟨S_, .f32⟩
  | 75 => ⟨S128, .f32⟩
  | 76 => ⟨S1x128, .f32⟩
  | 77 => ⟨S128x128, .f32⟩
  | 78 => ⟨S128x128, .f32⟩
  | 79 => ⟨S_, .f32⟩
  | 80 => ⟨S128, .f32⟩
  | 81 => ⟨S128x1, .f32⟩
  | 82 => ⟨S128x128, .f32⟩
  | 83 => ⟨S128x128, .f32⟩
  | 84 => ⟨S_, .f32⟩
  | 85 => ⟨S128, .f32⟩
  | 86 => ⟨S1x128, .f32⟩
  | 87 => ⟨S128x128, .f32⟩
  | 88 => ⟨S128x128, .f32⟩
  | 89 => ⟨S_, .f32⟩
  | 90 => ⟨S128, .f32⟩
  | 91 => ⟨S128x1, .f32⟩
  | 92 => ⟨S128x128, .f32⟩
  | 93 => ⟨S128x128, .f32⟩
  | 94 => ⟨S_, .f32⟩
  | 95 => ⟨S128, .f32⟩
  | 96 => ⟨S1x128, .f32⟩
  | 97 => ⟨S128x128, .f32⟩
  | 98 => ⟨S128x128, .f32⟩
  | 99 => ⟨S_, .f32⟩
  | 100 => ⟨S128, .f32⟩
  | 101 => ⟨S128x1, .f32⟩
  | 102 => ⟨S128x128, .f32⟩
  | 103 => ⟨S128x128, .f32⟩
  | 104 => ⟨S_, .f32⟩
  | 105 => ⟨S128, .f32⟩
  | 106 => ⟨S1x128, .f32⟩
  | 107 => ⟨S128x128, .f32⟩
  | 108 => ⟨S128x128, .f32⟩
  | 109 => ⟨S_, .f32⟩
  | 110 => ⟨S128, .f32⟩
  | 111 => ⟨S128x1, .f32⟩
  | 112 => ⟨S128x128, .f32⟩
  | 113 => ⟨S128x128, .f32⟩
  | 114 => ⟨S_, .f32⟩
  | 115 => ⟨S128, .f32⟩
  | 116 => ⟨S1x128, .f32⟩
  | 117 => ⟨S128x128, .f32⟩
  | 118 => ⟨S128x128, .f32⟩
  | 119 => ⟨S_, .f32⟩
  | 120 => ⟨S128, .f32⟩
  | 121 => ⟨S128x1, .f32⟩
  | 122 => ⟨S128x128, .f32⟩
  | 123 => ⟨S128x128, .f32⟩
  | 124 => ⟨S_, .f32⟩
  | 125 => ⟨S128, .f32⟩
  | 126 => ⟨S1x128, .f32⟩
  | 127 => ⟨S128x128, .f32⟩
  | _ => ⟨S524288x128, .f32⟩

abbrev hbmTy0_1 (i : Nat) : BufTy := match i % 128 with
  | 0 => ⟨S128x128, .f32⟩
  | 1 => ⟨S_, .f32⟩
  | 2 => ⟨S128, .f32⟩
  | 3 => ⟨S128x1, .f32⟩
  | 4 => ⟨S128x128, .f32⟩
  | 5 => ⟨S128x128, .f32⟩
  | 6 => ⟨S_, .f32⟩
  | 7 => ⟨S128, .f32⟩
  | 8 => ⟨S1x128, .f32⟩
  | 9 => ⟨S128x128, .f32⟩
  | 10 => ⟨S128x128, .f32⟩
  | 11 => ⟨S_, .f32⟩
  | 12 => ⟨S128, .f32⟩
  | 13 => ⟨S128x1, .f32⟩
  | 14 => ⟨S128x128, .f32⟩
  | 15 => ⟨S128x128, .f32⟩
  | 16 => ⟨S_, .f32⟩
  | 17 => ⟨S128, .f32⟩
  | 18 => ⟨S1x128, .f32⟩
  | 19 => ⟨S128x128, .f32⟩
  | 20 => ⟨S128x128, .f32⟩
  | 21 => ⟨S_, .f32⟩
  | 22 => ⟨S128, .f32⟩
  | 23 => ⟨S128x1, .f32⟩
  | 24 => ⟨S128x128, .f32⟩
  | 25 => ⟨S128x128, .f32⟩
  | 26 => ⟨S_, .f32⟩
  | 27 => ⟨S128, .f32⟩
  | 28 => ⟨S1x128, .f32⟩
  | 29 => ⟨S128x128, .f32⟩
  | 30 => ⟨S128x128, .f32⟩
  | 31 => ⟨S_, .f32⟩
  | 32 => ⟨S128, .f32⟩
  | 33 => ⟨S128x1, .f32⟩
  | 34 => ⟨S128x128, .f32⟩
  | 35 => ⟨S128x128, .f32⟩
  | 36 => ⟨S_, .f32⟩
  | 37 => ⟨S128, .f32⟩
  | 38 => ⟨S1x128, .f32⟩
  | 39 => ⟨S128x128, .f32⟩
  | 40 => ⟨S128x128, .f32⟩
  | 41 => ⟨S_, .f32⟩
  | 42 => ⟨S128, .f32⟩
  | 43 => ⟨S128x1, .f32⟩
  | 44 => ⟨S128x128, .f32⟩
  | 45 => ⟨S128x128, .f32⟩
  | 46 => ⟨S_, .f32⟩
  | 47 => ⟨S128, .f32⟩
  | 48 => ⟨S1x128, .f32⟩
  | 49 => ⟨S128x128, .f32⟩
  | 50 => ⟨S128x128, .f32⟩
  | 51 => ⟨S_, .f32⟩
  | 52 => ⟨S128, .f32⟩
  | 53 => ⟨S128x1, .f32⟩
  | 54 => ⟨S128x128, .f32⟩
  | 55 => ⟨S128x128, .f32⟩
  | 56 => ⟨S_, .f32⟩
  | 57 => ⟨S128, .f32⟩
  | 58 => ⟨S1x128, .f32⟩
  | 59 => ⟨S128x128, .f32⟩
  | 60 => ⟨S128x128, .f32⟩
  | 61 => ⟨S_, .f32⟩
  | 62 => ⟨S128, .f32⟩
  | 63 => ⟨S128x1, .f32⟩
  | 64 => ⟨S128x128, .f32⟩
  | 65 => ⟨S128x128, .f32⟩
  | 66 => ⟨S_, .f32⟩
  | 67 => ⟨S128, .f32⟩
  | 68 => ⟨S1x128, .f32⟩
  | 69 => ⟨S128x128, .f32⟩
  | 70 => ⟨S128x128, .f32⟩
  | 71 => ⟨S_, .f32⟩
  | 72 => ⟨S128, .f32⟩
  | 73 => ⟨S128x1, .f32⟩
  | 74 => ⟨S128x128, .f32⟩
  | 75 => ⟨S128x128, .f32⟩
  | 76 => ⟨S_, .f32⟩
  | 77 => ⟨S128, .f32⟩
  | 78 => ⟨S1x128, .f32⟩
  | 79 => ⟨S128x128, .f32⟩
  | 80 => ⟨S128x128, .f32⟩
  | 81 => ⟨S_, .f32⟩
  | 82 => ⟨S128, .f32⟩
  | 83 => ⟨S128x1, .f32⟩
  | 84 => ⟨S128x128, .f32⟩
  | 85 => ⟨S128x128, .f32⟩
  | 86 => ⟨S_, .f32⟩
  | 87 => ⟨S128, .f32⟩
  | 88 => ⟨S1x128, .f32⟩
  | 89 => ⟨S128x128, .f32⟩
  | 90 => ⟨S128x128, .f32⟩
  | 91 => ⟨S_, .f32⟩
  | 92 => ⟨S128, .f32⟩
  | 93 => ⟨S128x1, .f32⟩
  | 94 => ⟨S128x128, .f32⟩
  | 95 => ⟨S128x128, .f32⟩
  | 96 => ⟨S_, .f32⟩
  | 97 => ⟨S128, .f32⟩
  | 98 => ⟨S1x128, .f32⟩
  | 99 => ⟨S128x128, .f32⟩
  | 100 => ⟨S128x128, .f32⟩
  | 101 => ⟨S_, .f32⟩
  | 102 => ⟨S_, .f32⟩
  | 103 => ⟨S_, .f32⟩
  | 104 => ⟨S128x128, .i1⟩
  | 105 => ⟨S_, .f32⟩
  | 106 => ⟨S128x128, .f32⟩
  | 107 => ⟨S128x128, .f32⟩
  | 108 => ⟨S_, .f32⟩
  | 109 => ⟨S128x128, .f32⟩
  | 110 => ⟨S128x128, .i1⟩
  | 111 => ⟨S_, .f32⟩
  | 112 => ⟨S128x128, .f32⟩
  | 113 => ⟨S128x128, .f32⟩
  | 114 => ⟨S_, .f32⟩
  | 115 => ⟨S128x128, .f32⟩
  | 116 => ⟨S128x128, .i1⟩
  | 117 => ⟨S_, .f32⟩
  | 118 => ⟨S128x128, .f32⟩
  | 119 => ⟨S128x128, .f32⟩
  | 120 => ⟨S128x128, .f32⟩
  | 121 => ⟨S524288x128, .f32⟩
  | _ => ⟨S524288x128, .f32⟩

abbrev hbmTy (i : Nat) : BufTy := match i / 128 with
  | 0 => hbmTy0_0 i
  | 1 => hbmTy0_1 i
  | _ => ⟨S524288x128, .f32⟩

abbrev bufTy : (tb : Table) → Fin (tcTables nBuf tb) → BufTy
  | .hbm, ⟨i, _⟩ => hbmTy i
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_10 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_11 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_15 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_16 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_17 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_18 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_19 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_20 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_21 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_22 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_23 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_24 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_25 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_26 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_27 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_28 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_29 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_30 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_31 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_32 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_33 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_cst_34 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_35 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_cst_36 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_cst_37 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_38 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_cst_39 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_cst_40 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_cst_41 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_cst_42 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_cst_43 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_cst_44 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_cst_45 : Ref sig .tc := ⟨.hbm, 229, rfl⟩
abbrev main_cst_46 : Ref sig .tc := ⟨.hbm, 230, rfl⟩
abbrev main_cst_47 : Ref sig .tc := ⟨.hbm, 231, rfl⟩
abbrev main_call1_v0 : Ref sig .tc := ⟨.hbm, 232, rfl⟩
abbrev main_call1_v1 : Ref sig .tc := ⟨.hbm, 233, rfl⟩
abbrev main_call1_call0_v0 : Ref sig .tc := ⟨.hbm, 234, rfl⟩
abbrev main_call1_v2 : Ref sig .tc := ⟨.hbm, 235, rfl⟩
abbrev main_call1_cst : Ref sig .tc := ⟨.hbm, 236, rfl⟩
abbrev main_call1_v3 : Ref sig .tc := ⟨.hbm, 237, rfl⟩
abbrev main_call1_v4 : Ref sig .tc := ⟨.hbm, 238, rfl⟩
abbrev main_call1_v5 : Ref sig .tc := ⟨.hbm, 239, rfl⟩
abbrev main_call1_call1_v0 : Ref sig .tc := ⟨.hbm, 240, rfl⟩
abbrev main_call1_v6 : Ref sig .tc := ⟨.hbm, 241, rfl⟩
abbrev main_call1_cst_0 : Ref sig .tc := ⟨.hbm, 242, rfl⟩
abbrev main_call1_v7 : Ref sig .tc := ⟨.hbm, 243, rfl⟩
abbrev main_call1_v8 : Ref sig .tc := ⟨.hbm, 244, rfl⟩
abbrev main_call1_v9 : Ref sig .tc := ⟨.hbm, 245, rfl⟩
abbrev main_call1_call2_v0 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩

abbrev nD : Nat := 1
abbrev τ : Topo := Topo.v7x

variable {F : FTy → Type} [FloatOps F]

class Facts₀ : Prop where
  bcast_S_S128x128 : S_.BroadcastsInDim S128x128 (![] : Fin 0 → Fin S128x128.rank)
  reducesTo_S128x128_S128_d1 : S128x128.ReducesTo [1] S128
  h_S_ : 0 < S_.numel
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  reducesTo_S128x128_S128_d0 : S128x128.ReducesTo [0] S128
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  transposes_S128x128_S128x128_1_0 : S128x128.Transposes [1, 0] S128x128
  dot_S524288x128_S128x128_S524288x128_1_0_0_1_n_n_wf : DotDims.WF S524288x128 S128x128 S524288x128 [1] [0] [0] [1] [] []

variable [Facts₀]

def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf

class Facts : Prop extends Facts₀ where

variable [Facts]
-- ==== Proof.LibTypedRef.lean ====
/-
  A buffer reference that carries the type of the tensor value it holds moves contents between "the value's type" and
  "the buffer's own type" along the equation between the two. Going one way and then back is the identity, for any
  such reference: the two transports are along an equation and its inverse.
-/
import Idealize.ShloMosaic.Lib.StableHlo

namespace Cert.TypedRef

open Idealize.ShloMosaic Idealize.ShloMosaic.StableHlo

/-- To the buffer's type and back is the identity. -/
theorem ofBuf_toBuf {sig : RefSig} {T : BufTy} {Val : EltTy → Type} (x : TRef sig T) (v : T.Contents Val) :
    x.ofBuf (x.toBuf v) = v := by
  unfold TRef.ofBuf TRef.toBuf
  simp

end Cert.TypedRef
-- ==== Proof.Stages.lean ====
/-
  The doubly-normalised matrix that multiplies the batch, stage by stage.

  From a matrix of scores and a matrix of uniform samples: Gumbel noise is added to the scores, the sum is divided by
  the temperature 3, clipped to [-10, 10] and exponentiated; the positive matrix so obtained is then divided twenty
  times over by its row sums and then by its column sums (one "iteration" is the two divisions in that order); what is
  left has its infinities and undefined entries replaced by numbers, and is transposed. Each stage is written here once,
  as a function of whole arrays, for any interpretation of the floating-point operations.

  A host program computes the stages one array operation at a time, each operation writing a buffer of its own. One
  iteration is ten such operations: a zero, the sums along an axis started from it, the sums laid out as a column (or a
  row), the column (row) repeated to a full matrix, the quotient, and the same five again along the other axis. They are
  listed as a function of the eleven buffers involved, and a run of iterations as the concatenation over a list of such
  groups of buffers. For a list in which each iteration reads the matrix the previous one wrote, and never reads a buffer
  it has itself just overwritten, the contents of the last matrix buffer after the operations are the iterated
  normalisation of the contents of the first; and a buffer none of them writes keeps its contents.
-/
import Idealize.ShloMosaic.Lib.StableHlo.Run
import Idealize.ShloMosaic.Lib.Pipeline.Frame
import proofs.«100408_j28063316312541_2_alg».proof.Proof.LibTypedRef

noncomputable section

namespace Cert.Sinkhorn

open Idealize.ShloMosaic Idealize.ShloMosaic.StableHlo

/-! ## Shapes -/

abbrev S0 : Shape := ⟨0, ![]⟩
abbrev SM : Shape := ⟨2, ![128, 128]⟩
abbrev SV : Shape := ⟨1, ![128]⟩
abbrev SC : Shape := ⟨2, ![128, 1]⟩
abbrev SR : Shape := ⟨2, ![1, 128]⟩

theorem bc0 : S0.BroadcastsInDim SM (![] : Fin 0 → Fin SM.rank) := by decide
theorem pos0 : 0 < S0.numel := by decide
theorem red1 : SM.ReducesTo [1] SV := by decide
theorem red0 : SM.ReducesTo [0] SV := by decide
theorem bcVC : SV.BroadcastsInDim SC (![0] : Fin 1 → Fin SC.rank) := by decide
theorem bcCM : SC.BroadcastsInDim SM (![0, 1] : Fin 2 → Fin SM.rank) := by decide
theorem bcVR : SV.BroadcastsInDim SR (![1] : Fin 1 → Fin SR.rank) := by decide
theorem bcRM : SR.BroadcastsInDim SM (![0, 1] : Fin 2 → Fin SM.rank) := by decide
theorem trM : SM.Transposes [1, 0] SM := by decide

variable {F : FTy → Type} [FloatOps F]

/-- A 128 × 128 array of floats. -/
abbrev Mat (F : FTy → Type) : Type := (⟨SM, .f32⟩ : BufTy).Contents (Elt F)

/-! ## The stages -/

/-- The matrix every entry of which is the float with bit pattern `w`. -/
def splat (w : BitVec 32) : Mat F := broadcastInDim SM ![] bc0 (constant S0 .f32 w)

/-- Every entry divided by the sum of its row. -/
def rowStep (A : Mat F) : Mat F :=
  Host.divf A (broadcastInDim SM ![0, 1] bcCM (broadcastInDim SC ![0] bcVC
    (Host.reduceAdd A (constant S0 .f32 0x00000000#32) red1 pos0)))

/-- Every entry divided by the sum of its column. -/
def colStep (A : Mat F) : Mat F :=
  Host.divf A (broadcastInDim SM ![0, 1] bcRM (broadcastInDim SR ![1] bcVR
    (Host.reduceAdd A (constant S0 .f32 0x00000000#32) red0 pos0)))

/-- One iteration: rows, then columns. -/
def iterStep (A : Mat F) : Mat F := colStep (rowStep A)

/-- exp (clip ((logits - log (- log (u + ε) + ε) · 1) / 3, -10, 10)), ε the float nearest 1e-20. -/
def gumbelInit (logits u : Mat F) : Mat F :=
  Host.exp (minimumf (splat 0x41200000#32) (maximumf (splat 0xC1200000#32)
    (Host.divf (addf logits (mulf (Host.negf (Host.log (addf (Host.negf (Host.log (addf u (splat 0x1E3CE508#32))))
      (splat 0x1E3CE508#32)))) (splat 0x3F800000#32))) (splat 0x40400000#32))))

/-- An entry that is not equal to itself becomes 0; then +∞ becomes 1; then -∞ becomes 0. -/
def nanToNum (A : Mat F) : Mat F :=
  let a1 : Mat F := select (cmpf .une A A) (splat 0x00000000#32) A
  let a2 : Mat F := select (cmpf .oeq a1 (splat 0x7F800000#32)) (splat 0x3F800000#32) a1
  select (cmpf .oeq a2 (splat 0xFF800000#32)) (splat 0x00000000#32) a2

/-- The whole matrix: twenty iterations from the exponentiated scores, made numeric, transposed. -/
def mixT (logits u : Mat F) : Mat F :=
  transpose SM [1, 0] (nanToNum (iterStep^[20] (gumbelInit logits u))) trM

end Cert.Sinkhorn

namespace Cert.Sinkhorn

open Idealize.ShloMosaic Idealize.ShloMosaic.StableHlo

variable {F : FTy → Type} [FloatOps F] {τ : Topo} {sig : RefSig}

/-! ## Reading a typed buffer -/

/-- The contents of a typed buffer under a valuation, at the type of the value it holds. -/
def rd {T : BufTy} (x : TRef sig T) (W : Valuation τ sig (Elt F)) : T.Contents (Elt F) :=
  x.ofBuf (W (Proc.devRef .tc x.ref))

/-! ## One iteration as ten operations -/

/-- The buffers of one iteration: the matrix it reads (`a`), and for each of its two halves the zero, the sums, the sums
    as a column (row), that repeated to a matrix, and the quotient. -/
structure Iter (sig : RefSig) where
  a : TRef sig ⟨SM, .f32⟩
  z1 : TRef sig ⟨S0, .f32⟩
  s1 : TRef sig ⟨SV, .f32⟩
  k1 : TRef sig ⟨SC, .f32⟩
  b1 : TRef sig ⟨SM, .f32⟩
  m : TRef sig ⟨SM, .f32⟩
  z2 : TRef sig ⟨S0, .f32⟩
  s2 : TRef sig ⟨SV, .f32⟩
  k2 : TRef sig ⟨SR, .f32⟩
  b2 : TRef sig ⟨SM, .f32⟩
  out : TRef sig ⟨SM, .f32⟩

namespace Iter

/-- The ten operations, in order. -/
def ops (it : Iter sig) : List (HloOp τ sig (Elt F)) :=
  [ TRef.nullary it.z1 (constant S0 .f32 0x00000000#32),
    TRef.binary it.a it.z1 it.s1 (fun x v => Host.reduceAdd x v red1 pos0),
    TRef.unary it.s1 it.k1 (broadcastInDim SC ![0] bcVC),
    TRef.unary it.k1 it.b1 (broadcastInDim SM ![0, 1] bcCM),
    TRef.binary it.a it.b1 it.m Host.divf,
    TRef.nullary it.z2 (constant S0 .f32 0x00000000#32),
    TRef.binary it.m it.z2 it.s2 (fun x v => Host.reduceAdd x v red0 pos0),
    TRef.unary it.s2 it.k2 (broadcastInDim SR ![1] bcVR),
    TRef.unary it.k2 it.b2 (broadcastInDim SM ![0, 1] bcRM),
    TRef.binary it.m it.b2 it.out Host.divf ]

/-- The buffers the ten operations write. -/
def written (it : Iter sig) : List (Ref sig .tc) :=
  [it.z1.ref, it.s1.ref, it.k1.ref, it.b1.ref, it.m.ref, it.z2.ref, it.s2.ref, it.k2.ref, it.b2.ref, it.out.ref]

/-- The matrix an iteration reads is not among the buffers its first half writes before the quotient, nor the first
    quotient among those the second half writes before its own. -/
def Ok (it : Iter sig) : Prop :=
  it.a.ref ∉ [it.z1.ref, it.s1.ref, it.k1.ref, it.b1.ref] ∧ it.m.ref ∉ [it.z2.ref, it.s2.ref, it.k2.ref, it.b2.ref]

instance (it : Iter sig) : Decidable it.Ok := by unfold Ok; infer_instance

/-- After the ten operations the last quotient's buffer holds the iteration of what the read buffer held. -/
theorem rd_ops (it : Iter sig) (h : it.Ok) (W : Valuation τ sig (Elt F)) :
    rd it.out (after it.ops W) = iterStep (rd it.a W) := by
  obtain ⟨h1, h2⟩ := h
  simp only [List.mem_cons, List.not_mem_nil, or_false, not_or] at h1 h2
  obtain ⟨ha1, ha2, ha3, ha4⟩ := h1
  obtain ⟨hm1, hm2, hm3, hm4⟩ := h2
  unfold rd ops iterStep colStep rowStep
  simp (disch := assumption) only [after_cons, after_nil, nullary_result', unary_result', binary_result',
    nullary_result_ne', unary_result_ne', binary_result_ne', Cert.TypedRef.ofBuf_toBuf]

end Iter

end Cert.Sinkhorn

namespace Cert.Sinkhorn

open Idealize.ShloMosaic Idealize.ShloMosaic.StableHlo

variable {F : FTy → Type} [FloatOps F] {τ : Topo} {sig : RefSig}

/-- Two typed references to one buffer are one typed reference. -/
theorem tref_ext {T : BufTy} (x y : TRef sig T) (h : x.ref = y.ref) : x = y := by
  cases x; cases y; cases h; rfl

namespace Iter

/-- A buffer the iteration does not write keeps its contents. -/
theorem keep_ops (it : Iter sig) (b : Ref sig .tc) (hb : b ∉ it.written) (W : Valuation τ sig (Elt F)) :
    after it.ops W (Proc.devRef .tc b) = W (Proc.devRef .tc b) := by
  simp only [written, List.mem_cons, List.not_mem_nil, or_false, not_or] at hb
  obtain ⟨e1, e2, e3, e4, e5, e6, e7, e8, e9, e10⟩ := hb
  unfold ops
  simp (disch := assumption) only [after_cons, after_nil, nullary_result_ne', unary_result_ne', binary_result_ne']

/-- Every operation of an iteration touches device buffers only. -/
theorem ops_sub (it : Iter sig) : ∀ op ∈ (it.ops : List (HloOp τ sig (Elt F))), op.bufs ⊆ tcRefs τ sig := by
  intro op h
  simp only [ops, List.mem_cons, List.not_mem_nil, or_false] at h
  rcases h with rfl | rfl | rfl | rfl | rfl | rfl | rfl | rfl | rfl | rfl
  exacts [nullary_bufs_sub .., binary_bufs_sub .., unary_bufs_sub .., unary_bufs_sub .., binary_bufs_sub ..,
    nullary_bufs_sub .., binary_bufs_sub .., unary_bufs_sub .., unary_bufs_sub .., binary_bufs_sub ..]

/-- Every operation of an iteration determines what it writes. -/
theorem ops_fresh (it : Iter sig) : ∀ op ∈ (it.ops : List (HloOp τ sig (Elt F))), op.fresh = ∅ := by
  intro op h
  simp only [ops, List.mem_cons, List.not_mem_nil, or_false] at h
  rcases h with rfl | rfl | rfl | rfl | rfl | rfl | rfl | rfl | rfl | rfl <;> rfl

end Iter

/-! ## A run of iterations -/

/-- The operations of a list of iterations, in order. -/
def allOps : List (Iter sig) → List (HloOp τ sig (Elt F))
  | [] => []
  | it :: r => it.ops ++ allOps r

/-- Each iteration reads the matrix the one before it wrote, the first reads `a`, the last writes `z`; and each is
    well-formed (`Iter.Ok`). -/
def Linked : List (Iter sig) → Ref sig .tc → Ref sig .tc → Prop
  | [], a, z => a = z
  | it :: r, a, z => it.a.ref = a ∧ it.Ok ∧ Linked r it.out.ref z

instance decLinked : ∀ (its : List (Iter sig)) (a z : Ref sig .tc), Decidable (Linked its a z)
  | [], a, z => inferInstanceAs (Decidable (a = z))
  | it :: r, a, z => @instDecidableAnd _ _ _ (@instDecidableAnd _ _ _ (decLinked r it.out.ref z))

/-- After a linked run of iterations the last buffer holds the iterated normalisation of what the first held. -/
theorem rd_allOps : ∀ (its : List (Iter sig)) (a z : TRef sig ⟨SM, .f32⟩), Linked its a.ref z.ref →
    ∀ W : Valuation τ sig (Elt F), rd z (after (allOps its) W) = iterStep^[its.length] (rd a W)
  | [], a, z, h, W => by
    have e : a = z := tref_ext a z h
    subst e; rfl
  | it :: r, a, z, h, W => by
    obtain ⟨e, hok, hr⟩ := h
    have ea : it.a = a := tref_ext _ _ e
    rw [allOps, after_append, rd_allOps r it.out z hr, it.rd_ops hok, ea, List.length_cons,
      Function.iterate_succ_apply]

/-- A buffer no iteration of the run writes keeps its contents. -/
theorem keep_allOps : ∀ (its : List (Iter sig)) (b : Ref sig .tc), (∀ it ∈ its, b ∉ it.written) →
    ∀ W : Valuation τ sig (Elt F), after (allOps its) W (Proc.devRef .tc b) = W (Proc.devRef .tc b)
  | [], _, _, _ => rfl
  | it :: r, b, h, W => by
    rw [allOps, after_append, keep_allOps r b (fun i hi => h i (List.mem_cons_of_mem _ hi)),
      it.keep_ops b (h it List.mem_cons_self)]

theorem allOps_sub : ∀ (its : List (Iter sig)), ∀ op ∈ (allOps its : List (HloOp τ sig (Elt F))), op.bufs ⊆ tcRefs τ sig
  | [], _, h => nomatch h
  | it :: r, op, h => by
    rw [allOps, List.mem_append] at h
    exact h.elim (it.ops_sub op) (allOps_sub r op)

theorem allOps_fresh : ∀ (its : List (Iter sig)), ∀ op ∈ (allOps its : List (HloOp τ sig (Elt F))), op.fresh = ∅
  | [], _, h => nomatch h
  | it :: r, op, h => by
    rw [allOps, List.mem_append] at h
    exact h.elim (it.ops_fresh op) (allOps_fresh r op)

end Cert.Sinkhorn

end
-- ==== Proof.KernelTable.lean ====
/- The host operations of the program KernelIdeal that compute the transposed mixing matrix, as three stretches: the
   operations up to the exponentiated scores, the buffers of the twenty normalisation iterations, and the operations
   after the last iteration. -/
import proofs.«100408_j28063316312541_2_alg».proof.Proof.Gen.KernelIdeal.Launch
import proofs.«100408_j28063316312541_2_alg».proof.Proof.Stages

noncomputable section

namespace Cert.KernelIdeal.HostTable

open Cert.KernelIdeal Cert.KernelIdeal.Gen Idealize.ShloMosaic Idealize.ShloMosaic.StableHlo Cert.Sinkhorn

variable {F : FTy → Type} [FloatOps F]

/-- The operations up to the exponentiated scores, in order. -/
def initOps : List (HloOp τ sig (Elt F)) :=
  [ StableHlo.TRef.nullary (.of main_call0_cst : StableHlo.TRef sig ⟨S_, .f32⟩) (constant S_ .f32 0x1E3CE508#32),
    StableHlo.TRef.unary (.of main_call0_cst : StableHlo.TRef sig ⟨S_, .f32⟩) (.of main_call0_v0 : StableHlo.TRef sig ⟨S128x128, .f32⟩) (broadcastInDim S128x128 ![] bcast_S_S128x128),
    StableHlo.TRef.binary (.of main_arg2 : StableHlo.TRef sig ⟨S128x128, .f32⟩) (.of main_call0_v0 : StableHlo.TRef sig ⟨S128x128, .f32⟩) (.of main_call0_v1 : StableHlo.TRef sig ⟨S128x128, .f32⟩) addf,
    StableHlo.TRef.unary (.of main_call0_v1 : StableHlo.TRef sig ⟨S128x128, .f32⟩) (.of main_call0_v2 : StableHlo.TRef sig ⟨S128x128, .f32⟩) Host.log,
    StableHlo.TRef.unary (.of main_call0_v2 : StableHlo.TRef sig ⟨S128x128, .f32⟩) (.of main_call0_v3 : StableHlo.TRef sig ⟨S128x128, .f32⟩) Host.negf,
    StableHlo.TRef.nullary (.of main_call0_cst_0 : StableHlo.TRef sig ⟨S_, .f32⟩) (constant S_ .f32 0x1E3CE508#32),
    StableHlo.TRef.unary (.of main_call0_cst_0 : StableHlo.TRef sig ⟨S_, .f32⟩) (.of main_call0_v4 : StableHlo.TRef sig ⟨S128x128, .f32⟩) (broadcastInDim S128x128 ![] bcast_S_S128x128),
    StableHlo.TRef.binary (.of main_call0_v3 : StableHlo.TRef sig ⟨S128x128, .f32⟩) (.of main_call0_v4 : StableHlo.TRef sig ⟨S128x128, .f32⟩) (.of main_call0_v5 : StableHlo.TRef sig ⟨S128x128, .f32⟩) addf,
    StableHlo.TRef.unary (.of main_call0_v5 : StableHlo.TRef sig ⟨S128x128, .f32⟩) (.of main_call0_v6 : StableHlo.TRef sig ⟨S128x128, .f32⟩) Host.log,
    StableHlo.TRef.unary (.of main_call0_v6 : StableHlo.TRef sig ⟨S128x128, .f32⟩) (.of main_call0_v7 : StableHlo.TRef sig ⟨S128x128, .f32⟩) Host.negf,
    StableHlo.TRef.nullary (.of main_call0_cst_1 : StableHlo.TRef sig ⟨S_, .f32⟩) (constant S_ .f32 0x3F800000#32),
    StableHlo.TRef.unary (.of main_call0_cst_1 : StableHlo.TRef sig ⟨S_, .f32⟩) (.of main_call0_v8 : StableHlo.TRef sig ⟨S128x128, .f32⟩) (broadcastInDim S128x128 ![] bcast_S_S128x128),
    StableHlo.TRef.binary (.of main_call0_v7 : StableHlo.TRef sig ⟨S128x128, .f32⟩) (.of main_call0_v8 : StableHlo.TRef sig ⟨S128x128, .f32⟩) (.of main_call0_v9 : StableHlo.TRef sig ⟨S128x128, .f32⟩) mulf,
    StableHlo.TRef.binary (.of main_arg1 : StableHlo.TRef sig ⟨S128x128, .f32⟩) (.of main_call0_v9 : StableHlo.TRef sig ⟨S128x128, .f32⟩) (.of main_call0_v10 : StableHlo.TRef sig ⟨S128x128, .f32⟩) addf,
    StableHlo.TRef.nullary (.of main_call0_cst_2 : StableHlo.TRef sig ⟨S_, .f32⟩) (constant S_ .f32 0x40400000#32),
    StableHlo.TRef.unary (.of main_call0_cst_2 : StableHlo.TRef sig ⟨S_, .f32⟩) (.of main_call0_v11 : StableHlo.TRef sig ⟨S128x128, .f32⟩) (broadcastInDim S128x128 ![] bcast_S_S128x128),
    StableHlo.TRef.binary (.of main_call0_v10 : StableHlo.TRef sig ⟨S128x128, .f32⟩) (.of main_call0_v11 : StableHlo.TRef sig ⟨S128x128, .f32⟩) (.of main_call0_v12 : StableHlo.TRef sig ⟨S128x128, .f32⟩) Host.divf,
    StableHlo.TRef.nullary (.of main_call0_cst_3 : StableHlo.TRef sig ⟨S_, .f32⟩) (constant S_ .f32 0xC1200000#32),
    StableHlo.TRef.nullary (.of main_call0_cst_4 : StableHlo.TRef sig ⟨S_, .f32⟩) (constant S_ .f32 0x41200000#32),
    StableHlo.TRef.unary (.of main_call0_cst_3 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128x128, .f32⟩) (broadcastInDim S128x128 ![] bcast_S_S128x128),
    StableHlo.TRef.binary (.of main_call0_call0_v1 : StableHlo.TRef sig ⟨S128x128, .f32⟩) (.of main_call0_v12 : StableHlo.TRef sig ⟨S128x128, .f32⟩) (.of main_call0_call0_v2 : StableHlo.TRef sig ⟨S128x128, .f32⟩) maximumf,
    StableHlo.TRef.unary (.of main_call0_cst_4 : StableHlo.TRef sig ⟨S_, .f32⟩) (.of main_call0_call0_v3 : StableHlo.TRef sig ⟨S_, .f32⟩) id,
    StableHlo.TRef.unary (.of main_call0_call0_v3 : StableHlo.TRef sig ⟨S_, .f32⟩) (.of main_call0_call0_v4 : StableHlo.TRef sig ⟨S128x128, .f32⟩) (broadcastInDim S128x128 ![] bcast_S_S128x128),
    StableHlo.TRef.binary (.of main_call0_call0_v4 : StableHlo.TRef sig ⟨S128x128, .f32⟩) (.of main_call0_call0_v2 : StableHlo.TRef sig ⟨S128x128, .f32⟩) (.of main_call0_v13 : StableHlo.TRef sig ⟨S128x128, .f32⟩) minimumf,
    StableHlo.TRef.unary main_call0_call0.v5 (.of main_call0_v14 : StableHlo.TRef sig ⟨S128x128, .f32⟩) Host.exp ]

/-- The buffers of the twenty iterations, in order. -/
def iters : List (Iter sig) :=
  [ ⟨.of main_call0_v14, .of main_call0_cst_5, .of main_call0_v15, .of main_call0_v16, .of main_call0_v17, .of main_call0_v18, .of main_call0_cst_6, .of main_call0_v19, .of main_call0_v20, .of main_call0_v21, .of main_call0_v22⟩,
    ⟨.of main_call0_v22, .of main_call0_cst_7, .of main_call0_v23, .of main_call0_v24, .of main_call0_v25, .of main_call0_v26, .of main_call0_cst_8, .of main_call0_v27, .of main_call0_v28, .of main_call0_v29, .of main_call0_v30⟩,
    ⟨.of main_call0_v30, .of main_call0_cst_9, .of main_call0_v31, .of main_call0_v32, .of main_call0_v33, .of main_call0_v34, .of main_call0_cst_10, .of main_call0_v35, .of main_call0_v36, .of main_call0_v37, .of main_call0_v38⟩,
    ⟨.of main_call0_v38, .of main_call0_cst_11, .of main_call0_v39, .of main_call0_v40, .of main_call0_v41, .of main_call0_v42, .of main_call0_cst_12, .of main_call0_v43, .of main_call0_v44, .of main_call0_v45, .of main_call0_v46⟩,
    ⟨.of main_call0_v46, .of main_call0_cst_13, .of main_call0_v47, .of main_call0_v48, .of main_call0_v49, .of main_call0_v50, .of main_call0_cst_14, .of main_call0_v51, .of main_call0_v52, .of main_call0_v53, .of main_call0_v54⟩,
    ⟨.of main_call0_v54, .of main_call0_cst_15, .of main_call0_v55, .of main_call0_v56, .of main_call0_v57, .of main_call0_v58, .of main_call0_cst_16, .of main_call0_v59, .of main_call0_v60, .of main_call0_v61, .of main_call0_v62⟩,
    ⟨.of main_call0_v62, .of main_call0_cst_17, .of main_call0_v63, .of main_call0_v64, .of main_call0_v65, .of main_call0_v66, .of main_call0_cst_18, .of main_call0_v67, .of main_call0_v68, .of main_call0_v69, .of main_call0_v70⟩,
    ⟨.of main_call0_v70, .of main_call0_cst_19, .of main_call0_v71, .of main_call0_v72, .of main_call0_v73, .of main_call0_v74, .of main_call0_cst_20, .of main_call0_v75, .of main_call0_v76, .of main_call0_v77, .of main_call0_v78⟩,
    ⟨.of main_call0_v78, .of main_call0_cst_21, .of main_call0_v79, .of main_call0_v80, .of main_call0_v81, .of main_call0_v82, .of main_call0_cst_22, .of main_call0_v83, .of main_call0_v84, .of main_call0_v85, .of main_call0_v86⟩,
    ⟨.of main_call0_v86, .of main_call0_cst_23, .of main_call0_v87, .of main_call0_v88, .of main_call0_v89, .of main_call0_v90, .of main_call0_cst_24, .of main_call0_v91, .of main_call0_v92, .of main_call0_v93, .of main_call0_v94⟩,
    ⟨.of main_call0_v94, .of main_call0_cst_25, .of main_call0_v95, .of main_call0_v96, .of main_call0_v97, .of main_call0_v98, .of main_call0_cst_26, .of main_call0_v99, .of main_call0_v100, .of main_call0_v101, .of main_call0_v102⟩,
    ⟨.of main_call0_v102, .of main_call0_cst_27, .of main_call0_v103, .of main_call0_v104, .of main_call0_v105, .of main_call0_v106, .of main_call0_cst_28, .of main_call0_v107, .of main_call0_v108, .of main_call0_v109, .of main_call0_v110⟩,
    ⟨.of main_call0_v110, .of main_call0_cst_29, .of main_call0_v111, .of main_call0_v112, .of main_call0_v113, .of main_call0_v114, .of main_call0_cst_30, .of main_call0_v115, .of main_call0_v116, .of main_call0_v117, .of main_call0_v118⟩,
    ⟨.of main_call0_v118, .of main_call0_cst_31, .of main_call0_v119, .of main_call0_v120, .of main_call0_v121, .of main_call0_v122, .of main_call0_cst_32, .of main_call0_v123, .of main_call0_v124, .of main_call0_v125, .of main_call0_v126⟩,
    ⟨.of main_call0_v126, .of main_call0_cst_33, .of main_call0_v127, .of main_call0_v128, .of main_call0_v129, .of main_call0_v130, .of main_call0_cst_34, .of main_call0_v131, .of main_call0_v132, .of main_call0_v133, .of main_call0_v134⟩,
    ⟨.of main_call0_v134, .of main_call0_cst_35, .of main_call0_v135, .of main_call0_v136, .of main_call0_v137, .of main_call0_v138, .of main_call0_cst_36, .of main_call0_v139, .of main_call0_v140, .of main_call0_v141, .of main_call0_v142⟩,
    ⟨.of main_call0_v142, .of main_call0_cst_37, .of main_call0_v143, .of main_call0_v144, .of main_call0_v145, .of main_call0_v146, .of main_call0_cst_38, .of main_call0_v147, .of main_call0_v148, .of main_call0_v149, .of main_call0_v150⟩,
    ⟨.of main_call0_v150, .of main_call0_cst_39, .of main_call0_v151, .of main_call0_v152, .of main_call0_v153, .of main_call0_v154, .of main_call0_cst_40, .of main_call0_v155, .of main_call0_v156, .of main_call0_v157, .of main_call0_v158⟩,
    ⟨.of main_call0_v158, .of main_call0_cst_41, .of main_call0_v159, .of main_call0_v160, .of main_call0_v161, .of main_call0_v162, .of main_call0_cst_42, .of main_call0_v163, .of main_call0_v164, .of main_call0_v165, .of main_call0_v166⟩,
    ⟨.of main_call0_v166, .of main_call0_cst_43, .of main_call0_v167, .of main_call0_v168, .of main_call0_v169, .of main_call0_v170, .of main_call0_cst_44, .of main_call0_v171, .of main_call0_v172, .of main_call0_v173, .of main_call0_v174⟩ ]

/-- The operations after the last iteration, in order. -/
def tailOps : List (HloOp τ sig (Elt F)) :=
  [ StableHlo.TRef.nullary (.of main_call0_cst_45 : StableHlo.TRef sig ⟨S_, .f32⟩) (constant S_ .f32 0x00000000#32),
    StableHlo.TRef.nullary (.of main_call0_cst_46 : StableHlo.TRef sig ⟨S_, .f32⟩) (constant S_ .f32 0x00000000#32),
    StableHlo.TRef.nullary (.of main_call0_cst_47 : StableHlo.TRef sig ⟨S_, .f32⟩) (constant S_ .f32 0x3F800000#32),
    StableHlo.TRef.binary (.of main_call0_v174 : StableHlo.TRef sig ⟨S128x128, .f32⟩) (.of main_call0_v174 : StableHlo.TRef sig ⟨S128x128, .f32⟩) (.of main_call0_call1_v0 : StableHlo.TRef sig ⟨S128x128, .i1⟩) (cmpf .une),
    StableHlo.TRef.unary (.of main_call0_cst_45 : StableHlo.TRef sig ⟨S_, .f32⟩) (.of main_call0_call1_v1 : StableHlo.TRef sig ⟨S_, .f32⟩) id,
    StableHlo.TRef.unary (.of main_call0_call1_v1 : StableHlo.TRef sig ⟨S_, .f32⟩) (.of main_call0_call1_call0_v0 : StableHlo.TRef sig ⟨S128x128, .f32⟩) (broadcastInDim S128x128 ![] bcast_S_S128x128),
    StableHlo.TRef.ternary (.of main_call0_call1_v0 : StableHlo.TRef sig ⟨S128x128, .i1⟩) (.of main_call0_call1_call0_v0 : StableHlo.TRef sig ⟨S128x128, .f32⟩) (.of main_call0_v174 : StableHlo.TRef sig ⟨S128x128, .f32⟩) (.of main_call0_call1_v2 : StableHlo.TRef sig ⟨S128x128, .f32⟩) select,
    StableHlo.TRef.nullary (.of main_call0_call1_cst : StableHlo.TRef sig ⟨S_, .f32⟩) (constant S_ .f32 0x7F800000#32),
    StableHlo.TRef.unary (.of main_call0_call1_cst : StableHlo.TRef sig ⟨S_, .f32⟩) (.of main_call0_call1_v3 : StableHlo.TRef sig ⟨S128x128, .f32⟩) (broadcastInDim S128x128 ![] bcast_S_S128x128),
    StableHlo.TRef.binary main_call0_call1_call0.v1 (.of main_call0_call1_v3 : StableHlo.TRef sig ⟨S128x128, .f32⟩) (.of main_call0_call1_v4 : StableHlo.TRef sig ⟨S128x128, .i1⟩) (cmpf .oeq),
    StableHlo.TRef.unary (.of main_call0_cst_47 : StableHlo.TRef sig ⟨S_, .f32⟩) (.of main_call0_call1_v5 : StableHlo.TRef sig ⟨S_, .f32⟩) id,
    StableHlo.TRef.unary (.of main_call0_call1_v5 : StableHlo.TRef sig ⟨S_, .f32⟩) (.of main_call0_call1_call1_v0 : StableHlo.TRef sig ⟨S128x128, .f32⟩) (broadcastInDim S128x128 ![] bcast_S_S128x128),
    StableHlo.TRef.ternary (.of main_call0_call1_v4 : StableHlo.TRef sig ⟨S128x128, .i1⟩) (.of main_call0_call1_call1_v0 : StableHlo.TRef sig ⟨S128x128, .f32⟩) (main_call0_call1_call0.v1 : StableHlo.TRef sig ⟨S128x128, .f32⟩) (.of main_call0_call1_v6 : StableHlo.TRef sig ⟨S128x128, .f32⟩) select,
    StableHlo.TRef.nullary (.of main_call0_call1_cst_0 : StableHlo.TRef sig ⟨S_, .f32⟩) (constant S_ .f32 0xFF800000#32),
    StableHlo.TRef.unary (.of main_call0_call1_cst_0 : StableHlo.TRef sig ⟨S_, .f32⟩) (.of main_call0_call1_v7 : StableHlo.TRef sig ⟨S128x128, .f32⟩) (broadcastInDim S128x128 ![] bcast_S_S128x128),
    StableHlo.TRef.binary main_call0_call1_call1.v1 (.of main_call0_call1_v7 : StableHlo.TRef sig ⟨S128x128, .f32⟩) (.of main_call0_call1_v8 : StableHlo.TRef sig ⟨S128x128, .i1⟩) (cmpf .oeq),
    StableHlo.TRef.unary (.of main_call0_cst_46 : StableHlo.TRef sig ⟨S_, .f32⟩) (.of main_call0_call1_v9 : StableHlo.TRef sig ⟨S_, .f32⟩) id,
    StableHlo.TRef.unary (.of main_call0_call1_v9 : StableHlo.TRef sig ⟨S_, .f32⟩) (.of main_call0_call1_call2_v0 : StableHlo.TRef sig ⟨S128x128, .f32⟩) (broadcastInDim S128x128 ![] bcast_S_S128x128),
    StableHlo.TRef.ternary (.of main_call0_call1_v8 : StableHlo.TRef sig ⟨S128x128, .i1⟩) (.of main_call0_call1_call2_v0 : StableHlo.TRef sig ⟨S128x128, .f32⟩) (main_call0_call1_call1.v1 : StableHlo.TRef sig ⟨S128x128, .f32⟩) (.of main_call0_v175 : StableHlo.TRef sig ⟨S128x128, .f32⟩) select,
    StableHlo.TRef.unary main_call0_call1.call2.v1 (.of main_call0_v176 : StableHlo.TRef sig ⟨S128x128, .f32⟩) (transpose S128x128 [1, 0] · transposes_S128x128_S128x128_1_0) ]

end Cert.KernelIdeal.HostTable

end
-- ==== Proof.KernelHost.lean ====
/-
  What the kernel program's host operations leave in the array its second window stages.

  Before its one region the kernel program runs 246 host operations: those that exponentiate the clipped, noised
  scores, twenty normalisation iterations, and those that replace what is not a number and transpose. The generated
  list of them is the concatenation of the table's three stretches, so the contents of the transposed matrix's buffer
  when the region is entered are read stretch by stretch: the last stretch transposes the made-numeric contents of the
  last iteration's buffer, the linked run of iterations leaves there the twenty-fold normalisation of what the first
  stretch left, and the first stretch leaves the exponentiated scores of the two small arguments as launched. The
  composition is `mixT` of those two arguments.
-/
import proofs.«100408_j28063316312541_2_alg».proof.Proof.KernelTable
import proofs.«100408_j28063316312541_2_alg».proof.Proof.Gen.KernelIdeal.Frame
import Idealize.ShloMosaic.Lib.Pipeline.Regions

noncomputable section

namespace Cert.KernelIdeal.HostValue

open Cert.KernelIdeal Cert.KernelIdeal.Gen Cert.KernelIdeal.HostTable Idealize.ShloMosaic Idealize.ShloMosaic.TcCoe
  Idealize.SL.Sem Idealize.ShloMosaic.StableHlo Cert.Sinkhorn

variable {F : FTy → Type} [FloatOps F]

/-- The generated list of the host operations before the region is the table's three stretches, in order. -/
theorem hostOps0_eq : (hostOps0 : List (HloOp τ sig (Elt F))) = initOps ++ (allOps iters ++ tailOps) := by
  chain_rfl

/-- The first stretch leaves the exponentiated, clipped, noised scores of the two small arguments. -/
theorem init_rd (W : Valuation τ sig (Elt F)) :
    after initOps W (Proc.devRef .tc main_call0_v14)
      = gumbelInit (W (Proc.devRef .tc main_arg1)) (W (Proc.devRef .tc main_arg2)) := by
  unfold initOps
  after_results_simp
  rfl

/-- The last stretch leaves the transpose of the made-numeric contents of the last iteration's buffer. -/
theorem tail_rd (W : Valuation τ sig (Elt F)) :
    after tailOps W (Proc.devRef .tc main_call0_v176)
      = transpose SM [1, 0] (nanToNum (W (Proc.devRef .tc main_call0_v174))) trM := by
  unfold tailOps
  after_results_simp
  rfl

/-- The twenty iterations of the table are linked, from the first stretch's result to the last stretch's operand. -/
theorem linked : Linked (iters : List (Iter sig)) main_call0_v14 main_call0_v174 := by decide

/-- THE STAGED MATRIX: when the region is entered, the second window's array holds `mixT` of the two small arguments
    as launched. -/
theorem staged_eq (m : (ℓ : Loc nD τ sig) → Buf (Elt F) ℓ) (c : Dev nD) :
    V m c main_call0_v176 = mixT (m ((c : Thread nD τ).loc main_arg1)) (m ((c : Thread nD τ).loc main_arg2)) := by
  show StableHlo.after hostOps0 (fun b => m (c, b)) (Proc.devRef .tc main_call0_v176) = _
  rw [hostOps0_eq, after_append, after_append, tail_rd]
  have h : after (allOps iters) (after initOps fun b => m (c, b)) (Proc.devRef .tc main_call0_v174)
      = iterStep^[20] (gumbelInit (m ((c : Thread nD τ).loc main_arg1)) (m ((c : Thread nD τ).loc main_arg2))) := by
    refine (rd_allOps (F := F) iters (.of main_call0_v14) (.of main_call0_v174) linked
      (after initOps fun b => m (c, b))).trans ?_
    show iterStep^[20] (after initOps (fun b => m (c, b)) (Proc.devRef .tc main_call0_v14)) = _
    rw [init_rd]
  rw [h]
  rfl

end Cert.KernelIdeal.HostValue

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«100408_j28063316312541_2_alg».proof.Proof.LibPlainDot

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.Product.lean ====
/-
  The product of a batch of rows with a square matrix, entry by entry.

  For a batch `x` of 524288 rows of 128 numbers and a 128 × 128 matrix `P`, the entry (p, q) of the product is the sum
  over k of x(p, k) · P(k, q). This is the one function both programs' results are read against: a block of rows of
  the product is the product of that block of rows, because an entry depends on one row of the batch only.
-/
import Idealize.ShloMosaic.Lib.ValueIdx
import Idealize.ShloMosaic.PureOps.Ideal

noncomputable section

open scoped BigOperators

namespace Cert.Product

open Idealize.ShloMosaic Idealize.ShloMosaic.ValueIdx

/-- Entry (p, q): row p of the batch against column q of the matrix. -/
def rowsTimes (x : FVec Ideal ⟨2, ![524288, 128]⟩ .f32) (P : FVec Ideal ⟨2, ![128, 128]⟩ .f32) :
    FVec Ideal ⟨2, ![524288, 128]⟩ .f32 :=
  fun i => ∑ k : Fin 128, (x (ix2 (⟨(i 0).val, idx2_lt0 i⟩ : Fin 524288) k) : EReal)
    * (P (ix2 k (⟨(i 1).val, idx2_lt1 i⟩ : Fin 128)) : EReal)

theorem rowsTimes_ix2 (x : FVec Ideal ⟨2, ![524288, 128]⟩ .f32) (P : FVec Ideal ⟨2, ![128, 128]⟩ .f32)
    (p : Fin 524288) (q : Fin 128) :
    rowsTimes x P (ix2 p q) = ∑ k : Fin 128, (x (ix2 p k) : EReal) * (P (ix2 k q) : EReal) := rfl

end Cert.Product

end
-- ==== Proof.KernelBlock.lean ====
/-
  One grid point of the kernel, read as a block of a matrix product.

  Point t of the kernel's grid stages rows 8192·t … 8192·t + 8191 of the batch and the whole transposed matrix and
  multiplies them: the narrowing of the operands to a shorter float format is the identity at the exact values and the
  accumulator starts at zero, so the stored entry (p, q) is the sum over k of (row p of the staged rows)(k) times the
  staged matrix's (k, q). An entry of a product depends on one row of the left factor only, so what the point writes
  back is exactly rows 8192·t … of the product of the WHOLE batch with the matrix. The equation is proved for any batch
  and any matrix, and only then read at the arrays the region finds.
-/
import proofs.«100408_j28063316312541_2_alg».proof.Proof.Gen.KernelIdeal.Value
import proofs.«100408_j28063316312541_2_alg».proof.Proof.KernelHost
import proofs.«100408_j28063316312541_2_alg».proof.Proof.LibDotSums
import proofs.«100408_j28063316312541_2_alg».proof.Proof.Product
import Idealize.ShloMosaic.Lib.Pipeline.Value
import Idealize.ShloMosaic.Lib.ValueIdx

noncomputable section

open scoped BigOperators

namespace Cert.KernelIdeal.Block

open Cert.KernelIdeal Cert.KernelIdeal.Gen Idealize.ShloMosaic Idealize.ShloMosaic.TcCoe Idealize.SL.Sem
  Idealize.ShloMosaic.ValueIdx Cert.Product Cert.Sinkhorn
open Idealize.ShloMosaic.Pipeline (Dat)

variable (m : (ℓ : Loc nD τ sig) → Buf (Elt Ideal) ℓ) (ρ : Dev nD → PrngReg)

theorem zero_origin : (![0, 0] : Fin 2 → Nat) = fun _ => 0 := funext fun a => by fin_cases a <;> rfl

/-- The body's stored value at (p, q): row p of the staged rows against column q of the staged matrix. -/
theorem pay_ix2 (v0 : Vec Ideal S8192x128 .f32) (v2 : Vec Ideal S128x128 .f32) (p : Fin 8192) (q : Fin 128) :
    k0_pay1 (F := Ideal) v0 v2 (ix2 p q) = ∑ k : Fin 128, (v0 (ix2 p k) : EReal) * (v2 (ix2 k q) : EReal) := by
  unfold k0_pay1
  rw [shapeCast_self]
  exact Cert.DotSums.matmul_zero_ix2 dot_S8192x128_S128x128_S8192x128_1_0_0_1_n_n none rfl rfl rfl rfl rfl rfl rfl rfl
    (truncf .bf16 v0 bitsLt_bf16_f32) (truncf .bf16 v2 bitsLt_bf16_f32) p q

/-- The printed index maps over the grid: the batch's window and the result's move together, one block of rows per
    point; the matrix's window stays. -/
theorem idx_facts : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

set_option maxHeartbeats 4000000 in
/-- A BLOCK OF THE PRODUCT IS THE PRODUCT OF THE BLOCK: for any batch `X` and matrix `P`, what the body makes of
    block `t` of `X` and the whole of `P` is block `t` of the product of `X` with `P`. -/
theorem block_of_product (X : FVec Ideal S524288x128 .f32) (P : FVec Ideal S128x128 .f32) (t : Fin cfg0.N) :
    (cfg0.win 2).cut (grid0.coords t)
        (out0_2 (((cfg0.win 0).blk t).view.read (Elt Ideal) X) (((cfg0.win 1).blk t).view.read (Elt Ideal) P))
      = ((cfg0.win 2).blk t).view.read (Elt Ideal) (rowsTimes X P) := by
  unfold out0_2
  rw [View.canon_unit_zero zero_origin]
  simp only [View.ld_unit_zero (S := S8192x128) zero_origin, View.ld_unit_zero (S := S128x128) zero_origin]
  obtain ⟨e0, e1, e2, e3, e4, e5⟩ := idx_facts t
  funext j
  obtain ⟨p, q, rfl⟩ : ∃ (p : Fin 8192) (q : Fin 128), j = ix2 p q := ⟨j 0, j 1, eq_ix2 j⟩
  show k0_pay1 (F := Ideal) (((cfg0.win 0).blk t).view.read (Elt Ideal) X) (((cfg0.win 1).blk t).view.read (Elt Ideal) P) (ix2 p q)
    = rowsTimes X P (((cfg0.win 2).blk t).view.emb (ix2 p q))
  rw [pay_ix2 _ _ p q]
  unfold rowsTimes
  refine Finset.sum_congr rfl fun k _ => ?_
  have h0 : ((cfg0.win 0).blk t).view.emb (ix2 p k)
      = ix2 (⟨((((cfg0.win 2).blk t).view.emb (ix2 p q)) 0).val, idx2_lt0 _⟩ : Fin 524288) k := by
    funext a; apply Fin.ext
    match a with
    | ⟨0, _⟩ =>
      show win0_0.index t (0 : Fin 2) * 8192 + 1 * p.val = win0_2.index t (0 : Fin 2) * 8192 + 1 * p.val
      omega
    | ⟨1, _⟩ =>
      show win0_0.index t (1 : Fin 2) * 128 + 1 * k.val = k.val
      omega
  have h1 : ((cfg0.win 1).blk t).view.emb (ix2 k q)
      = ix2 k (⟨((((cfg0.win 2).blk t).view.emb (ix2 p q)) 1).val, idx2_lt1 _⟩ : Fin 128) := by
    funext a; apply Fin.ext
    match a with
    | ⟨0, _⟩ =>
      show win0_1.index t (0 : Fin 2) * 128 + 1 * k.val = k.val
      omega
    | ⟨1, _⟩ =>
      show win0_1.index t (1 : Fin 2) * 128 + 1 * q.val = win0_2.index t (1 : Fin 2) * 128 + 1 * q.val
      omega
  show X (((cfg0.win 0).blk t).view.emb (ix2 p k)) * P (((cfg0.win 1).blk t).view.emb (ix2 k q)) = _
  rw [h0, h1]

/-- WHAT POINT `t` WRITES BACK is block `t` of the product of the whole batch with the staged matrix. -/
theorem flushed_eq (c : Dev nD) (t : Fin cfg0.N) :
    (dats m 0 c).flushed 2 t = ((cfg0.win 2).blk t).view.read (Elt Ideal)
      (rowsTimes (V m c (Pipeline.arrRef spec0 0)) (V m c (Pipeline.arrRef spec0 1))) := by
  rw [Value.flushed2]
  exact block_of_product (V m c (Pipeline.arrRef spec0 0)) (V m c (Pipeline.arrRef spec0 1)) t

end Cert.KernelIdeal.Block

end
-- ==== Proof.KernelValue.lean ====
/-
  What the kernel's result array holds after its run.

  Each of the 64 grid points writes back one block of 8192 rows of the product of the batch with the staged matrix
  (Proof/KernelBlock.lean); row r lies in the block of point r / 8192, so the blocks tile the result array, which
  therefore ends holding the whole product. The staged matrix is what the host operations before the region left
  (Proof/KernelHost.lean): `mixT` of the two small arguments. The batch's array is never written.
-/
import proofs.«100408_j28063316312541_2_alg».proof.Proof.KernelBlock

noncomputable section

open scoped BigOperators

namespace Cert.KernelIdeal.BlockValue

open Cert.KernelIdeal Cert.KernelIdeal.Gen Cert.KernelIdeal.Block Idealize.ShloMosaic Idealize.ShloMosaic.TcCoe Idealize.SL.Sem
  Idealize.ShloMosaic.ValueIdx Cert.Product Cert.Sinkhorn
open Idealize.ShloMosaic.Pipeline (Dat)

variable (m : (ℓ : Loc nD τ sig) → Buf (Elt Ideal) ℓ) (ρ : Dev nD → PrngReg)

/-- An index of the result array is in point `t`'s block iff each coordinate is in the block's range on its axis. -/
theorem mem_blk (t : Fin cfg0.N) (i : S524288x128.Idx) :
    i ∈ ((cfg0.win 2).blk t).view.set ↔ ∀ a : Fin 2, win0_2.index t a * S8192x128.size a ≤ (i a).val
      ∧ (i a).val < win0_2.index t a * S8192x128.size a + S8192x128.size a := by
  show i ∈ ((View.whole main_v0).slice (win0_2.rect t)).set ↔ _
  rw [View.set_slice_whole, Rect.mem_set_unit]
  exact Iff.rfl

/-- THE BLOCKS TILE THE RESULT: row r lies in the block of point r / 8192. -/
theorem cover (i : S524288x128.Idx) :
    ∃ t : Fin cfg0.N, (cfg0.win 2).flush t = true ∧ i ∈ ((cfg0.win 2).blk t).view.set := by
  have hi0 : (i 0).val < 524288 := idx2_lt0 i
  have hi1 : (i 1).val < 128 := idx2_lt1 i
  have hN : cfg0.N = 64 := N_0
  have hlt : (i 0).val / 8192 < cfg0.N := by rw [hN]; omega
  obtain ⟨e0, e1, -⟩ := idx_facts ⟨(i 0).val / 8192, hlt⟩
  refine ⟨⟨(i 0).val / 8192, hlt⟩, flush0_2 _, ?_⟩
  rw [mem_blk]
  intro a
  match a with
  | ⟨0, _⟩ =>
    show win0_2.index ⟨(i 0).val / 8192, hlt⟩ (0 : Fin 2) * 8192 ≤ (i 0).val
      ∧ (i 0).val < win0_2.index ⟨(i 0).val / 8192, hlt⟩ (0 : Fin 2) * 8192 + 8192
    rw [e0]
    show (i 0).val / 8192 * 8192 ≤ (i 0).val ∧ (i 0).val < (i 0).val / 8192 * 8192 + 8192
    omega
  | ⟨1, _⟩ =>
    show win0_2.index ⟨(i 0).val / 8192, hlt⟩ (1 : Fin 2) * 128 ≤ (i 1).val
      ∧ (i 1).val < win0_2.index ⟨(i 0).val / 8192, hlt⟩ (1 : Fin 2) * 128 + 128
    rw [e1]
    omega

/-- THE RESULT ARRAY after the run: the product of the batch as launched with `mixT` of the two small arguments as
    launched. -/
theorem final (c : Dev nD) :
    (dats m 0 c).arrAt 2 cfg0.N
      = rowsTimes (m ((c : Thread nD τ).loc main_arg0))
          (mixT (m ((c : Thread nD τ).loc main_arg1)) (m ((c : Thread nD τ).loc main_arg2))) := by
  rw [(dats m 0 c).arrAt_eq_of_cover 2 _ (fun t _ => flushed_eq m c t) cover]
  have e0 : V m c (Pipeline.arrRef spec0 0) = m ((c : Thread nD τ).loc main_arg0) := V_main_arg0 m c
  have e1 : V m c (Pipeline.arrRef spec0 1)
      = mixT (m ((c : Thread nD τ).loc main_arg1)) (m ((c : Thread nD τ).loc main_arg2)) :=
    Cert.KernelIdeal.HostValue.staged_eq m c
  rw [e0, e1]

/-- The kernel program's run with its result array named: every weakly fair execution terminates with the result at
    the product of the batch with `mixT` of the two small arguments, the arguments as launched. -/
theorem run : θ_run defs (onTc (τ := τ) (main (F := Ideal))) ⟨m, fun _ => 0, ρ⟩ fun r => ∀ c : Dev nD,
      r.2.mem ((c : Thread nD τ).loc main_v0)
          = rowsTimes (m ((c : Thread nD τ).loc main_arg0))
              (mixT (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.BlockValue

end
-- ==== Proof.ReferenceTable.lean ====
/- The host operations of the program ReferenceIdeal that compute the transposed mixing matrix, as three stretches: the
   operations up to the exponentiated scores, the buffers of the twenty normalisation iterations, and the operations
   after the last iteration (the last of them the product with the batch). -/
import proofs.«100408_j28063316312541_2_alg».proof.Proof.Gen.ReferenceIdeal
import proofs.«100408_j28063316312541_2_alg».proof.Proof.Stages

noncomputable section

namespace Cert.ReferenceIdeal.HostTable

open Cert.ReferenceIdeal Cert.ReferenceIdeal.Gen Idealize.ShloMosaic Idealize.ShloMosaic.StableHlo Cert.Sinkhorn

variable {F : FTy → Type} [FloatOps F]

/-- The operations up to the exponentiated scores, in order. -/
def initOps : List (HloOp τ sig (Elt F)) :=
  [ StableHlo.TRef.nullary (.of main_cst : StableHlo.TRef sig ⟨S_, .f32⟩) (constant S_ .f32 0x1E3CE508#32),
    StableHlo.TRef.unary (.of main_cst : StableHlo.TRef sig ⟨S_, .f32⟩) (.of main_v0 : StableHlo.TRef sig ⟨S128x128, .f32⟩) (broadcastInDim S128x128 ![] bcast_S_S128x128),
    StableHlo.TRef.binary (.of main_arg2 : StableHlo.TRef sig ⟨S128x128, .f32⟩) (.of main_v0 : StableHlo.TRef sig ⟨S128x128, .f32⟩) (.of main_v1 : StableHlo.TRef sig ⟨S128x128, .f32⟩) addf,
    StableHlo.TRef.unary (.of main_v1 : StableHlo.TRef sig ⟨S128x128, .f32⟩) (.of main_v2 : StableHlo.TRef sig ⟨S128x128, .f32⟩) Host.log,
    StableHlo.TRef.unary (.of main_v2 : StableHlo.TRef sig ⟨S128x128, .f32⟩) (.of main_v3 : StableHlo.TRef sig ⟨S128x128, .f32⟩) Host.negf,
    StableHlo.TRef.nullary (.of main_cst_0 : StableHlo.TRef sig ⟨S_, .f32⟩) (constant S_ .f32 0x1E3CE508#32),
    StableHlo.TRef.unary (.of main_cst_0 : StableHlo.TRef sig ⟨S_, .f32⟩) (.of main_v4 : StableHlo.TRef sig ⟨S128x128, .f32⟩) (broadcastInDim S128x128 ![] bcast_S_S128x128),
    StableHlo.TRef.binary (.of main_v3 : StableHlo.TRef sig ⟨S128x128, .f32⟩) (.of main_v4 : StableHlo.TRef sig ⟨S128x128, .f32⟩) (.of main_v5 : StableHlo.TRef sig ⟨S128x128, .f32⟩) addf,
    StableHlo.TRef.unary (.of main_v5 : StableHlo.TRef sig ⟨S128x128, .f32⟩) (.of main_v6 : StableHlo.TRef sig ⟨S128x128, .f32⟩) Host.log,
    StableHlo.TRef.unary (.of main_v6 : StableHlo.TRef sig ⟨S128x128, .f32⟩) (.of main_v7 : StableHlo.TRef sig ⟨S128x128, .f32⟩) Host.negf,
    StableHlo.TRef.nullary (.of main_cst_1 : StableHlo.TRef sig ⟨S_, .f32⟩) (constant S_ .f32 0x3F800000#32),
    StableHlo.TRef.unary (.of main_cst_1 : StableHlo.TRef sig ⟨S_, .f32⟩) (.of main_v8 : StableHlo.TRef sig ⟨S128x128, .f32⟩) (broadcastInDim S128x128 ![] bcast_S_S128x128),
    StableHlo.TRef.binary (.of main_v7 : StableHlo.TRef sig ⟨S128x128, .f32⟩) (.of main_v8 : StableHlo.TRef sig ⟨S128x128, .f32⟩) (.of main_v9 : StableHlo.TRef sig ⟨S128x128, .f32⟩) mulf,
    StableHlo.TRef.binary (.of main_arg1 : StableHlo.TRef sig ⟨S128x128, .f32⟩) (.of main_v9 : StableHlo.TRef sig ⟨S128x128, .f32⟩) (.of main_v10 : StableHlo.TRef sig ⟨S128x128, .f32⟩) addf,
    StableHlo.TRef.nullary (.of main_cst_2 : StableHlo.TRef sig ⟨S_, .f32⟩) (constant S_ .f32 0x40400000#32),
    StableHlo.TRef.unary (.of main_cst_2 : StableHlo.TRef sig ⟨S_, .f32⟩) (.of main_v11 : StableHlo.TRef sig ⟨S128x128, .f32⟩) (broadcastInDim S128x128 ![] bcast_S_S128x128),
    StableHlo.TRef.binary (.of main_v10 : StableHlo.TRef sig ⟨S128x128, .f32⟩) (.of main_v11 : StableHlo.TRef sig ⟨S128x128, .f32⟩) (.of main_v12 : StableHlo.TRef sig ⟨S128x128, .f32⟩) Host.divf,
    StableHlo.TRef.nullary (.of main_cst_3 : StableHlo.TRef sig ⟨S_, .f32⟩) (constant S_ .f32 0xC1200000#32),
    StableHlo.TRef.nullary (.of main_cst_4 : StableHlo.TRef sig ⟨S_, .f32⟩) (constant S_ .f32 0x41200000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S128x128, .f32⟩) (broadcastInDim S128x128 ![] bcast_S_S128x128),
    StableHlo.TRef.binary (.of main_call0_v1 : StableHlo.TRef sig ⟨S128x128, .f32⟩) (.of main_v12 : StableHlo.TRef sig ⟨S128x128, .f32⟩) (.of main_call0_v2 : StableHlo.TRef sig ⟨S128x128, .f32⟩) maximumf,
    StableHlo.TRef.unary (.of main_cst_4 : StableHlo.TRef sig ⟨S_, .f32⟩) (.of main_call0_v3 : StableHlo.TRef sig ⟨S_, .f32⟩) id,
    StableHlo.TRef.unary (.of main_call0_v3 : StableHlo.TRef sig ⟨S_, .f32⟩) (.of main_call0_v4 : StableHlo.TRef sig ⟨S128x128, .f32⟩) (broadcastInDim S128x128 ![] bcast_S_S128x128),
    StableHlo.TRef.binary (.of main_call0_v4 : StableHlo.TRef sig ⟨S128x128, .f32⟩) (.of main_call0_v2 : StableHlo.TRef sig ⟨S128x128, .f32⟩) (.of main_v13 : StableHlo.TRef sig ⟨S128x128, .f32⟩) minimumf,
    StableHlo.TRef.unary main_call0.v5 (.of main_v14 : StableHlo.TRef sig ⟨S128x128, .f32⟩) Host.exp ]

/-- The buffers of the twenty iterations, in order. -/
def iters : List (Iter sig) :=
  [ ⟨.of main_v14, .of main_cst_5, .of main_v15, .of main_v16, .of main_v17, .of main_v18, .of main_cst_6, .of main_v19, .of main_v20, .of main_v21, .of main_v22⟩,
    ⟨.of main_v22, .of main_cst_7, .of main_v23, .of main_v24, .of main_v25, .of main_v26, .of main_cst_8, .of main_v27, .of main_v28, .of main_v29, .of main_v30⟩,
    ⟨.of main_v30, .of main_cst_9, .of main_v31, .of main_v32, .of main_v33, .of main_v34, .of main_cst_10, .of main_v35, .of main_v36, .of main_v37, .of main_v38⟩,
    ⟨.of main_v38, .of main_cst_11, .of main_v39, .of main_v40, .of main_v41, .of main_v42, .of main_cst_12, .of main_v43, .of main_v44, .of main_v45, .of main_v46⟩,
    ⟨.of main_v46, .of main_cst_13, .of main_v47, .of main_v48, .of main_v49, .of main_v50, .of main_cst_14, .of main_v51, .of main_v52, .of main_v53, .of main_v54⟩,
    ⟨.of main_v54, .of main_cst_15, .of main_v55, .of main_v56, .of main_v57, .of main_v58, .of main_cst_16, .of main_v59, .of main_v60, .of main_v61, .of main_v62⟩,
    ⟨.of main_v62, .of main_cst_17, .of main_v63, .of main_v64, .of main_v65, .of main_v66, .of main_cst_18, .of main_v67, .of main_v68, .of main_v69, .of main_v70⟩,
    ⟨.of main_v70, .of main_cst_19, .of main_v71, .of main_v72, .of main_v73, .of main_v74, .of main_cst_20, .of main_v75, .of main_v76, .of main_v77, .of main_v78⟩,
    ⟨.of main_v78, .of main_cst_21, .of main_v79, .of main_v80, .of main_v81, .of main_v82, .of main_cst_22, .of main_v83, .of main_v84, .of main_v85, .of main_v86⟩,
    ⟨.of main_v86, .of main_cst_23, .of main_v87, .of main_v88, .of main_v89, .of main_v90, .of main_cst_24, .of main_v91, .of main_v92, .of main_v93, .of main_v94⟩,
    ⟨.of main_v94, .of main_cst_25, .of main_v95, .of main_v96, .of main_v97, .of main_v98, .of main_cst_26, .of main_v99, .of main_v100, .of main_v101, .of main_v102⟩,
    ⟨.of main_v102, .of main_cst_27, .of main_v103, .of main_v104, .of main_v105, .of main_v106, .of main_cst_28, .of main_v107, .of main_v108, .of main_v109, .of main_v110⟩,
    ⟨.of main_v110, .of main_cst_29, .of main_v111, .of main_v112, .of main_v113, .of main_v114, .of main_cst_30, .of main_v115, .of main_v116, .of main_v117, .of main_v118⟩,
    ⟨.of main_v118, .of main_cst_31, .of main_v119, .of main_v120, .of main_v121, .of main_v122, .of main_cst_32, .of main_v123, .of main_v124, .of main_v125, .of main_v126⟩,
    ⟨.of main_v126, .of main_cst_33, .of main_v127, .of main_v128, .of main_v129, .of main_v130, .of main_cst_34, .of main_v131, .of main_v132, .of main_v133, .of main_v134⟩,
    ⟨.of main_v134, .of main_cst_35, .of main_v135, .of main_v136, .of main_v137, .of main_v138, .of main_cst_36, .of main_v139, .of main_v140, .of main_v141, .of main_v142⟩,
    ⟨.of main_v142, .of main_cst_37, .of main_v143, .of main_v144, .of main_v145, .of main_v146, .of main_cst_38, .of main_v147, .of main_v148, .of main_v149, .of main_v150⟩,
    ⟨.of main_v150, .of main_cst_39, .of main_v151, .of main_v152, .of main_v153, .of main_v154, .of main_cst_40, .of main_v155, .of main_v156, .of main_v157, .of main_v158⟩,
    ⟨.of main_v158, .of main_cst_41, .of main_v159, .of main_v160, .of main_v161, .of main_v162, .of main_cst_42, .of main_v163, .of main_v164, .of main_v165, .of main_v166⟩,
    ⟨.of main_v166, .of main_cst_43, .of main_v167, .of main_v168, .of main_v169, .of main_v170, .of main_cst_44, .of main_v171, .of main_v172, .of main_v173, .of main_v174⟩ ]

/-- The operations after the last iteration, in order. -/
def tailOps : List (HloOp τ sig (Elt F)) :=
  [ StableHlo.TRef.nullary (.of main_cst_45 : StableHlo.TRef sig ⟨S_, .f32⟩) (constant S_ .f32 0x00000000#32),
    StableHlo.TRef.nullary (.of main_cst_46 : StableHlo.TRef sig ⟨S_, .f32⟩) (constant S_ .f32 0x00000000#32),
    StableHlo.TRef.nullary (.of main_cst_47 : StableHlo.TRef sig ⟨S_, .f32⟩) (constant S_ .f32 0x3F800000#32),
    StableHlo.TRef.binary (.of main_v174 : StableHlo.TRef sig ⟨S128x128, .f32⟩) (.of main_v174 : StableHlo.TRef sig ⟨S128x128, .f32⟩) (.of main_call1_v0 : StableHlo.TRef sig ⟨S128x128, .i1⟩) (cmpf .une),
    StableHlo.TRef.unary (.of main_cst_45 : StableHlo.TRef sig ⟨S_, .f32⟩) (.of main_call1_v1 : StableHlo.TRef sig ⟨S_, .f32⟩) id,
    StableHlo.TRef.unary (.of main_call1_v1 : StableHlo.TRef sig ⟨S_, .f32⟩) (.of main_call1_call0_v0 : StableHlo.TRef sig ⟨S128x128, .f32⟩) (broadcastInDim S128x128 ![] bcast_S_S128x128),
    StableHlo.TRef.ternary (.of main_call1_v0 : StableHlo.TRef sig ⟨S128x128, .i1⟩) (.of main_call1_call0_v0 : StableHlo.TRef sig ⟨S128x128, .f32⟩) (.of main_v174 : StableHlo.TRef sig ⟨S128x128, .f32⟩) (.of main_call1_v2 : StableHlo.TRef sig ⟨S128x128, .f32⟩) select,
    StableHlo.TRef.nullary (.of main_call1_cst : StableHlo.TRef sig ⟨S_, .f32⟩) (constant S_ .f32 0x7F800000#32),
    StableHlo.TRef.unary (.of main_call1_cst : StableHlo.TRef sig ⟨S_, .f32⟩) (.of main_call1_v3 : StableHlo.TRef sig ⟨S128x128, .f32⟩) (broadcastInDim S128x128 ![] bcast_S_S128x128),
    StableHlo.TRef.binary main_call1_call0.v1 (.of main_call1_v3 : StableHlo.TRef sig ⟨S128x128, .f32⟩) (.of main_call1_v4 : StableHlo.TRef sig ⟨S128x128, .i1⟩) (cmpf .oeq),
    StableHlo.TRef.unary (.of main_cst_47 : StableHlo.TRef sig ⟨S_, .f32⟩) (.of main_call1_v5 : StableHlo.TRef sig ⟨S_, .f32⟩) id,
    StableHlo.TRef.unary (.of main_call1_v5 : StableHlo.TRef sig ⟨S_, .f32⟩) (.of main_call1_call1_v0 : StableHlo.TRef sig ⟨S128x128, .f32⟩) (broadcastInDim S128x128 ![] bcast_S_S128x128),
    StableHlo.TRef.ternary (.of main_call1_v4 : StableHlo.TRef sig ⟨S128x128, .i1⟩) (.of main_call1_call1_v0 : StableHlo.TRef sig ⟨S128x128, .f32⟩) (main_call1_call0.v1 : StableHlo.TRef sig ⟨S128x128, .f32⟩) (.of main_call1_v6 : StableHlo.TRef sig ⟨S128x128, .f32⟩) select,
    StableHlo.TRef.nullary (.of main_call1_cst_0 : StableHlo.TRef sig ⟨S_, .f32⟩) (constant S_ .f32 0xFF800000#32),
    StableHlo.TRef.unary (.of main_call1_cst_0 : StableHlo.TRef sig ⟨S_, .f32⟩) (.of main_call1_v7 : StableHlo.TRef sig ⟨S128x128, .f32⟩) (broadcastInDim S128x128 ![] bcast_S_S128x128),
    StableHlo.TRef.binary main_call1_call1.v1 (.of main_call1_v7 : StableHlo.TRef sig ⟨S128x128, .f32⟩) (.of main_call1_v8 : StableHlo.TRef sig ⟨S128x128, .i1⟩) (cmpf .oeq),
    StableHlo.TRef.unary (.of main_cst_46 : StableHlo.TRef sig ⟨S_, .f32⟩) (.of main_call1_v9 : StableHlo.TRef sig ⟨S_, .f32⟩) id,
    StableHlo.TRef.unary (.of main_call1_v9 : StableHlo.TRef sig ⟨S_, .f32⟩) (.of main_call1_call2_v0 : StableHlo.TRef sig ⟨S128x128, .f32⟩) (broadcastInDim S128x128 ![] bcast_S_S128x128),
    StableHlo.TRef.ternary (.of main_call1_v8 : StableHlo.TRef sig ⟨S128x128, .i1⟩) (.of main_call1_call2_v0 : StableHlo.TRef sig ⟨S128x128, .f32⟩) (main_call1_call1.v1 : StableHlo.TRef sig ⟨S128x128, .f32⟩) (.of main_v175 : StableHlo.TRef sig ⟨S128x128, .f32⟩) select,
    StableHlo.TRef.unary main_call1.call2.v1 (.of main_v176 : StableHlo.TRef sig ⟨S128x128, .f32⟩) (transpose S128x128 [1, 0] · transposes_S128x128_S128x128_1_0),
    StableHlo.binary main_arg0 main_v176 main_v177 ((fun l r => Host.dotGeneral dot_S524288x128_S128x128_S524288x128_1_0_0_1_n_n none l r) : (⟨S524288x128, .f32⟩ : BufTy).Contents (Elt F) → (⟨S128x128, .f32⟩ : BufTy).Contents (Elt F) → (⟨S524288x128, .f32⟩ : BufTy).Contents (Elt F)) ]

end Cert.ReferenceIdeal.HostTable

end
-- ==== Proof.ReferenceRun.lean ====
/-
  The reference program's run, read back.

  The reference is host operations only: those that exponentiate the clipped, noised scores, twenty normalisation
  iterations, those that replace what is not a number and transpose, and the product of the batch with the transposed
  matrix. Its printed program is the sequence of the table's three stretches, so every weakly fair execution
  terminates with each buffer at the fold of the operations over its launch contents; read stretch by stretch, the
  result buffer ends at the product of the batch with `mixT` of the two small arguments, and no operation writes an
  argument.
-/
import proofs.«100408_j28063316312541_2_alg».proof.Proof.ReferenceTable
import Idealize.ShloMosaic.Lib.Pipeline.Regions

noncomputable section

namespace Cert.ReferenceIdeal.HostRun

open Cert.ReferenceIdeal Cert.ReferenceIdeal.Gen Cert.ReferenceIdeal.HostTable Idealize.ShloMosaic Idealize.ShloMosaic.TcCoe
  Idealize.SL.Sem Idealize.ShloMosaic.StableHlo Cert.Sinkhorn

variable {F : FTy → Type} [FloatOps F]

/-- The reference's operations, in order. -/
def ops : List (HloOp τ sig (Elt F)) := initOps ++ (allOps iters ++ tailOps)

/-- The printed program is the sequence of these operations. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-! ## Every operation touches device buffers only, and determines what it writes -/

theorem initOps_sub : (initOps : List (HloOp τ sig (Elt F))).Forall fun op => op.bufs ⊆ tcRefs τ sig := by
  unfold initOps
  simp only [List.Forall, nullary_bufs_sub, unary_bufs_sub, binary_bufs_sub, ternary_bufs_sub, and_self]

theorem tailOps_sub : (tailOps : List (HloOp τ sig (Elt F))).Forall fun op => op.bufs ⊆ tcRefs τ sig := by
  unfold tailOps
  simp only [List.Forall, nullary_bufs_sub, unary_bufs_sub, binary_bufs_sub, ternary_bufs_sub, and_self]

theorem ops_sub : (ops : List (HloOp τ sig (Elt F))).Forall fun op => op.bufs ⊆ tcRefs τ sig :=
  List.forall_iff_forall_mem.mpr fun op h => by
    simp only [ops, List.mem_append] at h
    rcases h with h | h | h
    · exact List.forall_iff_forall_mem.mp initOps_sub op h
    · exact allOps_sub iters op h
    · exact List.forall_iff_forall_mem.mp tailOps_sub op h

theorem initOps_fresh : (initOps : List (HloOp τ sig (Elt F))).Forall fun op => op.fresh = ∅ := by
  unfold initOps
  simp only [List.Forall]
  repeat' constructor

theorem tailOps_fresh : (tailOps : List (HloOp τ sig (Elt F))).Forall fun op => op.fresh = ∅ := by
  unfold tailOps
  simp only [List.Forall]
  repeat' constructor

theorem ops_fresh : ∀ op ∈ (ops : List (HloOp τ sig (Elt F))), op.fresh = ∅ := fun op h => by
  simp only [ops, List.mem_append] at h
  rcases h with h | h | h
  · exact List.forall_iff_forall_mem.mp initOps_fresh op h
  · exact allOps_fresh iters op h
  · exact List.forall_iff_forall_mem.mp tailOps_fresh op h

/-! ## The stretches, read -/

/-- The first stretch leaves the exponentiated, clipped, noised scores of the two small arguments. -/
theorem init_rd (W : Valuation τ sig (Elt F)) :
    after initOps W (Proc.devRef .tc main_v14)
      = gumbelInit (W (Proc.devRef .tc main_arg1)) (W (Proc.devRef .tc main_arg2)) := by
  unfold initOps
  after_results_simp
  rfl

/-- The last stretch leaves, in the result buffer, the product of the batch with the transpose of the made-numeric
    contents of the last iteration's buffer. -/
theorem tail_rd (W : Valuation τ sig (Elt F)) :
    after tailOps W (Proc.devRef .tc main_v177)
      = Host.dotGeneral dot_S524288x128_S128x128_S524288x128_1_0_0_1_n_n none (W (Proc.devRef .tc main_arg0))
          (transpose SM [1, 0] (nanToNum (W (Proc.devRef .tc main_v174))) trM) := by
  unfold tailOps
  after_results_simp
  rfl

/-- The twenty iterations of the table are linked, from the first stretch's result to the last stretch's operand. -/
theorem linked : Linked (iters : List (Iter sig)) main_v14 main_v174 := by decide

/-- No stretch writes an argument. -/
theorem init_keep0 (W : Valuation τ sig (Elt F)) : after initOps W (Proc.devRef .tc main_arg0) = W (Proc.devRef .tc main_arg0) := by
  unfold initOps; after_results_simp
theorem init_keep1 (W : Valuation τ sig (Elt F)) : after initOps W (Proc.devRef .tc main_arg1) = W (Proc.devRef .tc main_arg1) := by
  unfold initOps; after_results_simp
theorem init_keep2 (W : Valuation τ sig (Elt F)) : after initOps W (Proc.devRef .tc main_arg2) = W (Proc.devRef .tc main_arg2) := by
  unfold initOps; after_results_simp
theorem tail_keep0 (W : Valuation τ sig (Elt F)) : after tailOps W (Proc.devRef .tc main_arg0) = W (Proc.devRef .tc main_arg0) := by
  unfold tailOps; after_results_simp
theorem tail_keep1 (W : Valuation τ sig (Elt F)) : after tailOps W (Proc.devRef .tc main_arg1) = W (Proc.devRef .tc main_arg1) := by
  unfold tailOps; after_results_simp
theorem tail_keep2 (W : Valuation τ sig (Elt F)) : after tailOps W (Proc.devRef .tc main_arg2) = W (Proc.devRef .tc main_arg2) := by
  unfold tailOps; after_results_simp

theorem keep0 (V : Valuation τ sig (Elt F)) : after ops V (Proc.devRef .tc main_arg0) = V (Proc.devRef .tc main_arg0) := by
  rw [ops, after_append, after_append, tail_keep0, keep_allOps iters main_arg0 (by decide), init_keep0]
theorem keep1 (V : Valuation τ sig (Elt F)) : after ops V (Proc.devRef .tc main_arg1) = V (Proc.devRef .tc main_arg1) := by
  rw [ops, after_append, after_append, tail_keep1, keep_allOps iters main_arg1 (by decide), init_keep1]
theorem keep2 (V : Valuation τ sig (Elt F)) : after ops V (Proc.devRef .tc main_arg2) = V (Proc.devRef .tc main_arg2) := by
  rw [ops, after_append, after_append, tail_keep2, keep_allOps iters main_arg2 (by decide), init_keep2]

/-- THE RESULT: after all the operations the result buffer holds the product of the batch with `mixT` of the two small
    arguments. -/
theorem result (V : Valuation τ sig (Elt F)) :
    after ops V (Proc.devRef .tc main_v177)
      = Host.dotGeneral dot_S524288x128_S128x128_S524288x128_1_0_0_1_n_n none (V (Proc.devRef .tc main_arg0))
          (mixT (V (Proc.devRef .tc main_arg1)) (V (Proc.devRef .tc main_arg2))) := by
  rw [ops, after_append, after_append, tail_rd, keep_allOps iters main_arg0 (by decide), init_keep0]
  have h : after (allOps iters) (after initOps V) (Proc.devRef .tc main_v174)
      = iterStep^[20] (gumbelInit (V (Proc.devRef .tc main_arg1)) (V (Proc.devRef .tc main_arg2))) := by
    refine (rd_allOps (F := F) iters (.of main_v14) (.of main_v174) linked (after initOps V)).trans ?_
    show iterStep^[20] (after initOps V (Proc.devRef .tc main_v14)) = _
    rw [init_rd]
  rw [h]
  rfl

/-! ## The run -/

/-- On every device, from any memory with zero counters: every weakly fair execution of the reference terminates with
    the result buffer at the product of the batch with `mixT` of the two small arguments, and the arguments as
    launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v177)
          = Host.dotGeneral dot_S524288x128_S128x128_S524288x128_1_0_0_1_n_n none (m ((c.tc : Thread nD τ).loc main_arg0))
              (mixT (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v177).trans (result (launchContents m c)),
      (h c main_arg0).trans (keep0 (launchContents m c)),
      (h c main_arg1).trans (keep1 (launchContents m c)),
      (h c main_arg2).trans (keep2 (launchContents m c))⟩)
    (run_seq scopedRefs_eq scopedSems_eq defs main (fun _ => ops) main_eq (fun _ => ops_sub) m ρ (fun _ => ops_fresh))

end Cert.ReferenceIdeal.HostRun

end
-- ==== Proof.ReferenceValue.lean ====
/-
  The reference's product is the entry-by-entry product.

  The host's contraction of axis 1 of the batch against axis 0 of the transposed matrix is, at the exact values, the
  plain sum over k of x(p, k) · P(k, q) at every entry (p, q): no rounding and no order of summation is left to tell it
  from the sums the kernel's blocks hold.
-/
import proofs.«100408_j28063316312541_2_alg».proof.Proof.ReferenceRun
import proofs.«100408_j28063316312541_2_alg».proof.Proof.LibDotSums
import proofs.«100408_j28063316312541_2_alg».proof.Proof.Product

noncomputable section

namespace Cert.ReferenceIdeal.ResultValue

open Cert.ReferenceIdeal Cert.ReferenceIdeal.Gen Idealize.ShloMosaic Idealize.ShloMosaic.ValueIdx Cert.Product

/-- The reference's `dot_general` of a batch and a matrix is their product, entry by entry. -/
theorem dot_eq (x : FVec Ideal S524288x128 .f32) (P : FVec Ideal S128x128 .f32) :
    Host.dotGeneral (F := Ideal) dot_S524288x128_S128x128_S524288x128_1_0_0_1_n_n none x P = rowsTimes x P := by
  funext i
  obtain ⟨p, q, rfl⟩ : ∃ (p : Fin 524288) (q : Fin 128), i = ix2 p q := ⟨i 0, i 1, eq_ix2 i⟩
  exact (Cert.DotSums.dotGeneral_ix2 dot_S524288x128_S128x128_S524288x128_1_0_0_1_n_n none .single
    rfl rfl rfl rfl rfl rfl rfl rfl x P p q).trans (rowsTimes_ix2 x P p q).symm

end Cert.ReferenceIdeal.ResultValue

end
-- ==== Proof.lean ====
/-
  The kernel computes x · Pᵀ for a batch x of 524288 rows and the 128 × 128 matrix P obtained from a matrix of scores
  and a matrix of uniform samples by Gumbel noise, a temperature, a clip, an exponential, twenty rounds of row and
  column normalisation and a clean-up of the values that are not numbers; its reference computes the same product in
  one piece. Both programs compute Pᵀ by the same host operations (Proof/Stages.lean names the stages once; each
  program's buffers are tabulated in Proof/KernelTable.lean and Proof/ReferenceTable.lean and read back in
  Proof/KernelHost.lean and Proof/ReferenceRun.lean). The kernel then multiplies block by block, 8192 rows at a time,
  and the blocks tile the result (Proof/KernelValue.lean); the reference contracts the whole batch at once
  (Proof/ReferenceValue.lean). At the exact values both are the sum over k of x(p, k) · Pᵀ(k, q) at every entry (p, q)
  (Proof/Product.lean), an equation that needs no finiteness: nothing is distributed or cancelled, a sum is only read
  a block of rows at a time. The idealization rewrote nothing, so its record is empty.
-/
import proofs.«100408_j28063316312541_2_alg».proof.Defs
import proofs.«100408_j28063316312541_2_alg».proof.Proof.Gen.Kernel
import proofs.«100408_j28063316312541_2_alg».proof.Proof.Gen.Kernel.Frame
import proofs.«100408_j28063316312541_2_alg».proof.Proof.Gen.KernelIdeal
import proofs.«100408_j28063316312541_2_alg».proof.Proof.Gen.KernelIdeal.Frame
import proofs.«100408_j28063316312541_2_alg».proof.Proof.Gen.KernelIdeal.Value
import proofs.«100408_j28063316312541_2_alg».proof.Proof.Gen.ReferenceIdeal
import proofs.«100408_j28063316312541_2_alg».proof.Proof.Gen.Pre_finite_inputs
import proofs.«100408_j28063316312541_2_alg».proof.Proof.KernelValue
import proofs.«100408_j28063316312541_2_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result forgotten. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- The idealization rewrote no operation. -/
theorem preserves : Cert.preserves_Kernel_KernelIdeal := trivial

/-- From memories that agree on the three arguments both programs end with the product of the batch with the
    transposed mixing matrix of the two small arguments: the kernel's result array block by block, the reference's
    as one contraction, one function of the arguments. -/
theorem algebraic : Cert.algebraic_KernelIdeal_ReferenceIdeal := by
  intro m ρ m' ρ' _ hagree
  refine ⟨_, Cert.KernelIdeal.BlockValue.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.1, (hagree c).2.2]
  exact Cert.ReferenceIdeal.ResultValue.dot_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
